-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x300 : Shape := ⟨2, ![20000, 300]⟩
abbrev S8000x1280 : Shape := ⟨2, ![8000, 1280]⟩
abbrev S500000 : Shape := ⟨1, ![500000]⟩
abbrev S200000 : Shape := ⟨1, ![200000]⟩
abbrev S512x300 : Shape := ⟨2, ![512, 300]⟩
abbrev S512 : Shape := ⟨1, ![512]⟩
abbrev S512x1280 : Shape := ⟨2, ![512, 1280]⟩
abbrev S5x812 : Shape := ⟨2, ![5, 812]⟩
abbrev S5 : Shape := ⟨1, ![5]⟩
abbrev S_ : Shape := ⟨0, ![]⟩

class Facts : Prop where
  bcast_S_S20000x300 : S_.BroadcastsInDim S20000x300 (![] : Fin 0 → Fin S20000x300.rank)
  reducesTo_S20000x300_S_d0_1 : S20000x300.ReducesTo [0, 1] S_
  h_S_ : 0 < S_.numel
  bcast_S_S8000x1280 : S_.BroadcastsInDim S8000x1280 (![] : Fin 0 → Fin S8000x1280.rank)
  reducesTo_S8000x1280_S_d0_1 : S8000x1280.ReducesTo [0, 1] S_
  bcast_S_S512x300 : S_.BroadcastsInDim S512x300 (![] : Fin 0 → Fin S512x300.rank)
  reducesTo_S512x300_S_d0_1 : S512x300.ReducesTo [0, 1] S_
  bcast_S_S512 : S_.BroadcastsInDim S512 (![] : Fin 0 → Fin S512.rank)
  reducesTo_S512_S_d0 : S512.ReducesTo [0] S_
  bcast_S_S512x1280 : S_.BroadcastsInDim S512x1280 (![] : Fin 0 → Fin S512x1280.rank)
  reducesTo_S512x1280_S_d0_1 : S512x1280.ReducesTo [0, 1] S_
  bcast_S_S5x812 : S_.BroadcastsInDim S5x812 (![] : Fin 0 → Fin S5x812.rank)
  reducesTo_S5x812_S_d0_1 : S5x812.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg8 : FVec F S512x1280 .f32) (main_arg9 : FVec F S5x812 .f32) (main_arg10 : FVec F S5 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1280 .f32 := Host.absf main_arg8
  let main_cst_6 : FVec F S_ .f32 := constant S_ .f32 0x7F800000#32
  let main_v20 : FVec F S512x1280 .f32 := broadcastInDim S512x1280 ![] bcast_S_S512x1280 main_cst_6
  let main_v21 : IVec S512x1280 1 := cmpf .olt main_v19 main_v20
  let main_c_7 : IVec S_ 1 := constantI S_ 1 1#1
  let main_v22 : IVec S_ 1 := (fun x v => Host.reduce IntOp.andi x v reducesTo_S512x1280_S_d0_1 h_S_) main_v21 main_c_7
  let main_v23 : IVec S_ 1 := andi main_v18 main_v22
  let main_v24 : FVec F S5x812 .f32 := Host.absf main_arg9
  let main_cst_8 : FVec F S_ .f32 := constant S_ .f32 0x7F800000#32
  let main_v25 : FVec F S5x812 .f32 := broadcastInDim S5x812 ![] bcast_S_S5x812 main_cst_8
  let main_v26 : IVec S5x812 1 := cmpf .olt main_v24 main_v25
  let main_c_9 : IVec S_ 1 := constantI S_ 1 1#1
  let main_v27 : IVec S_ 1 := (fun x v => Host.reduce IntOp.andi x v reducesTo_S5x812_S_d0_1 h_S_) main_v26 main_c_9
  let main_v28 : IVec S_ 1 := andi main_v23 main_v27
  let main_v29 : FVec F S5 .f32 := Host.absf main_arg10
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S20000x300 .f32) (main_arg1 : FVec F S8000x1280 .f32) (main_arg2 : IVec S500000 32) (main_arg3 : IVec S500000 32) (main_arg4 : IVec S200000 32) (main_arg5 : IVec S200000 32) (main_arg6 : FVec F S512x300 .f32) (main_arg7 : FVec F S512 .f32) (main_arg8 : FVec F S512x1280 .f32) (main_arg9 : FVec F S5x812 .f32) (main_arg10 : FVec F S5 .f32) : IVec S_ 1 :=
  let main_v0 : FVec F S20000x300 .f32 := Host.absf main_arg0
  let main_cst : FVec F S_ .f32 := constant S_ .f32 0x7F800000#32
  let main_v1 : FVec F S20000x300 .f32 := broadcastInDim S20000x300 ![] bcast_S_S20000x300 main_cst
  let main_v2 : IVec S20000x300 1 := cmpf .olt main_v0 main_v1
  let main_c : IVec S_ 1 := constantI S_ 1 1#1
  let main_v3 : IVec S_ 1 := (fun x v => Host.reduce IntOp.andi x v reducesTo_S20000x300_S_d0_1 h_S_) main_v2 main_c
  let main_v4 : FVec F S8000x1280 .f32 := Host.absf main_arg1
  let main_cst_0 : FVec F S_ .f32 := constant S_ .f32 0x7F800000#32
  let main_v5 : FVec F S8000x1280 .f32 := broadcastInDim S8000x1280 ![] bcast_S_S8000x1280 main_cst_0
  let main_v6 : IVec S8000x1280 1 := cmpf .olt main_v4 main_v5
  let main_c_1 : IVec S_ 1 := constantI S_ 1 1#1
  let main_v7 : IVec S_ 1 := (fun x v => Host.reduce IntOp.andi x v reducesTo_S8000x1280_S_d0_1 h_S_) main_v6 main_c_1
  let main_v8 : IVec S_ 1 := andi main_v3 main_v7
  let main_v9 : FVec F S512x300 .f32 := Host.absf main_arg6
  let main_cst_2 : FVec F S_ .f32 := constant S_ .f32 0x7F800000#32
  let main_v10 : FVec F S512x300 .f32 := broadcastInDim S512x300 ![] bcast_S_S512x300 main_cst_2
  let main_v11 : IVec S512x300 1 := cmpf .olt main_v9 main_v10
  let main_c_3 : IVec S_ 1 := constantI S_ 1 1#1
  let main_v12 : IVec S_ 1 := (fun x v => Host.reduce IntOp.andi x v reducesTo_S512x300_S_d0_1 h_S_) main_v11 main_c_3
  let main_v13 : IVec S_ 1 := andi main_v8 main_v12
  let main_v14 : FVec F S512 .f32 := Host.absf main_arg7
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg8 main_arg9 main_arg10 main_v13 main_v16
-- ==== Kernel.lean ====
abbrev S20000x300 : Shape := ⟨2, ![20000, 300]⟩
abbrev S8000x1280 : Shape := ⟨2, ![8000, 1280]⟩
abbrev S500000 : Shape := ⟨1, ![500000]⟩
abbrev S200000 : Shape := ⟨1, ![200000]⟩
abbrev S512x300 : Shape := ⟨2, ![512, 300]⟩
abbrev S512 : Shape := ⟨1, ![512]⟩
abbrev S512x1280 : Shape := ⟨2, ![512, 1280]⟩
abbrev S5x812 : Shape := ⟨2, ![5, 812]⟩
abbrev S5 : Shape := ⟨1, ![5]⟩
abbrev S_ : Shape := ⟨0, ![]⟩
abbrev S500000x1 : Shape := ⟨2, ![500000, 1]⟩
abbrev S500000x300 : Shape := ⟨2, ![500000, 300]⟩
abbrev S8000x300 : Shape := ⟨2, ![8000, 300]⟩
abbrev S8000 : Shape := ⟨1, ![8000]⟩
abbrev S8000x1 : Shape := ⟨2, ![8000, 1]⟩
abbrev S300x512 : Shape := ⟨2, ![300, 512]⟩
abbrev S1280x512 : Shape := ⟨2, ![1280, 512]⟩
abbrev S1x512 : Shape := ⟨2, ![1, 512]⟩
abbrev S5x512 : Shape := ⟨2, ![5, 512]⟩
abbrev S512x5 : Shape := ⟨2, ![512, 5]⟩
abbrev S8000x5 : Shape := ⟨2, ![8000, 5]⟩
abbrev S1000x300 : Shape := ⟨2, ![1000, 300]⟩
abbrev S1000x1280 : Shape := ⟨2, ![1000, 1280]⟩
abbrev S1000x5 : Shape := ⟨2, ![1000, 5]⟩
abbrev S1000x512 : Shape := ⟨2, ![1000, 512]⟩
abbrev S5x300 : Shape := ⟨2, ![5, 300]⟩
abbrev S300x5 : Shape := ⟨2, ![300, 5]⟩
abbrev S20000x5 : Shape := ⟨2, ![20000, 5]⟩
abbrev S2000x300 : Shape := ⟨2, ![2000, 300]⟩
abbrev S2000x5 : Shape := ⟨2, ![2000, 5]⟩
abbrev S200000x1 : Shape := ⟨2, ![200000, 1]⟩
abbrev S200000x5 : Shape := ⟨2, ![200000, 5]⟩
abbrev S1x5 : Shape := ⟨2, ![1, 5]⟩

abbrev nBuf : Space → Nat
  | .hbm => 75
  | .vmem => 15
  | .smem => 0
  | _ => 0

abbrev bufTy : (tb : Table) → Fin (tcTables nBuf tb) → BufTy
  | .hbm, ⟨0, _⟩ => ⟨S20000x300, .f32⟩
  | .hbm, ⟨1, _⟩ => ⟨S8000x1280, .f32⟩
  | .hbm, ⟨2, _⟩ => ⟨S500000, .i32⟩
  | .hbm, ⟨3, _⟩ => ⟨S500000, .i32⟩
  | .hbm, ⟨4, _⟩ => ⟨S200000, .i32⟩
  | .hbm, ⟨5, _⟩ => ⟨S200000, .i32⟩
  | .hbm, ⟨6, _⟩ => ⟨S512x300, .f32⟩
  | .hbm, ⟨7, _⟩ => ⟨S512, .f32⟩
  | .hbm, ⟨8, _⟩ => ⟨S512x1280, .f32⟩
  | .hbm, ⟨9, _⟩ => ⟨S5x812, .f32⟩
  | .hbm, ⟨10, _⟩ => ⟨S5, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x300, .f32⟩
  | .hbm, ⟨20, _⟩ => ⟨S_, .f32⟩
  | .hbm, ⟨21, _⟩ => ⟨S8000x300, .f32⟩
  | .hbm, ⟨22, _⟩ => ⟨S500000x1, .i32⟩
  | .hbm, ⟨23, _⟩ => ⟨S8000x300, .f32⟩
  | .hbm, ⟨24, _⟩ => ⟨S_, .f32⟩
  | .hbm, ⟨25, _⟩ => ⟨S500000, .f32⟩
  | .hbm, ⟨26, _⟩ => ⟨S_, .f32⟩
  | .hbm, ⟨27, _⟩ => ⟨S8000, .f32⟩
  | .hbm, ⟨28, _⟩ => ⟨S500000x1, .i32⟩
  | .hbm, ⟨29, _⟩ => ⟨S8000, .f32⟩
  | .hbm, ⟨30, _⟩ => ⟨S_, .f32⟩
  | .hbm, ⟨31, _⟩ => ⟨S_, .f32⟩
  | .hbm, ⟨32, _⟩ => ⟨S8000, .f32⟩
  | .hbm, ⟨33, _⟩ => ⟨S8000, .f32⟩
  | .hbm, ⟨34, _⟩ => ⟨S8000x1, .f32⟩
  | .hbm, ⟨35, _⟩ => ⟨S8000x300, .f32⟩
  | .hbm, ⟨36, _⟩ => ⟨S8000x300, .f32⟩
  | .hbm, ⟨37, _⟩ => ⟨S300x512, .f32⟩
  | .hbm, ⟨38, _⟩ => ⟨S300x512, .bf16⟩
  | .hbm, ⟨39, _⟩ => ⟨S1280x512, .f32⟩
  | .hbm, ⟨40, _⟩ => ⟨S1280x512, .bf16⟩
  | .hbm, ⟨41, _⟩ => ⟨S1x512, .f32⟩
  | .hbm, ⟨42, _⟩ => ⟨S5x512, .f32⟩
  | .hbm, ⟨43, _⟩ => ⟨S512x5, .f32⟩
  | .hbm, ⟨44, _⟩ => ⟨S512x5, .bf16⟩
  | .hbm, ⟨45, _⟩ => ⟨S8000x300, .bf16⟩
  | .hbm, ⟨46, _⟩ => ⟨S8000x1280, .bf16⟩
  | .hbm, ⟨47, _⟩ => ⟨S8000x5, .f32⟩
  | .hbm, ⟨48, _⟩ => ⟨S5x300, .f32⟩
  | .hbm, ⟨49, _⟩ => ⟨S300x5, .f32⟩
  | .hbm, ⟨50, _⟩ => ⟨S300x5, .bf16⟩
  | .hbm, ⟨51, _⟩ => ⟨S20000x300, .bf16⟩
  | .hbm, ⟨52, _⟩ => ⟨S20000x5, .f32⟩
  | .hbm, ⟨53, _⟩ => ⟨S_, .i32⟩
  | .hbm, ⟨54, _⟩ => ⟨S200000, .i32⟩
  | .hbm, ⟨55, _⟩ => ⟨S200000, .i1⟩
  | .hbm, ⟨56, _⟩ => ⟨S_, .i32⟩
  | .hbm, ⟨57, _⟩ => ⟨S200000, .i32⟩
  | .hbm, ⟨58, _⟩ => ⟨S200000, .i32⟩
  | .hbm, ⟨59, _⟩ => ⟨S200000, .i32⟩
  | .hbm, ⟨60, _⟩ => ⟨S200000x1, .i32⟩
  | .hbm, ⟨61, _⟩ => ⟨S200000x5, .f32⟩
  | .hbm, ⟨62, _⟩ => ⟨S_, .i32⟩
  | .hbm, ⟨63, _⟩ => ⟨S200000, .i32⟩
  | .hbm, ⟨64, _⟩ => ⟨S200000, .i1⟩
  | .hbm, ⟨65, _⟩ => ⟨S_, .i32⟩
  | .hbm, ⟨66, _⟩ => ⟨S200000, .i32⟩
  | .hbm, ⟨67, _⟩ => ⟨S200000, .i32⟩
  | .hbm, ⟨68, _⟩ => ⟨S200000, .i32⟩
  | .hbm, ⟨69, _⟩ => ⟨S200000x1, .i32⟩
  | .hbm, ⟨70, _⟩ => ⟨S200000x5, .f32⟩
  | .hbm, ⟨71, _⟩ => ⟨S200000x5, .f32⟩
  | .hbm, ⟨72, _⟩ => ⟨S1x5, .f32⟩
  | .hbm, ⟨73, _⟩ => ⟨S200000x5, .f32⟩
  | .hbm, ⟨74, _⟩ => ⟨S200000x5, .f32⟩
  | .local _ .vmem, ⟨0, _⟩ => ⟨S1000x300, .bf16⟩
  | .local _ .vmem, ⟨1, _⟩ => ⟨S1000x300, .bf16⟩
  | .local _ .vmem, ⟨2, _⟩ => ⟨S1000x1280, .bf16⟩
  | .local _ .vmem, ⟨3, _⟩ => ⟨S1000x1280, .bf16⟩
  | .local _ .vmem, ⟨4, _⟩ => ⟨S300x512, .bf16⟩
  | .local _ .vmem, ⟨5, _⟩ => ⟨S1280x512, .bf16⟩
  | .local _ .vmem, ⟨6, _⟩ => ⟨S1x512, .f32⟩
  | .local _ .vmem, ⟨7, _⟩ => ⟨S512x5, .bf16⟩
  | .local _ .vmem, ⟨8, _⟩ => ⟨S1000x5, .f32⟩
  | .local _ .vmem, ⟨9, _⟩ => ⟨S1000x5, .f32⟩
  | .local _ .vmem, ⟨10, _⟩ => ⟨S2000x300, .bf16⟩
  | .local _ .vmem, ⟨11, _⟩ => ⟨S2000x300, .bf16⟩
  | .local _ .vmem, ⟨12, _⟩ => ⟨S300x5, .bf16⟩
  | .local _ .vmem, ⟨13, _⟩ => ⟨S2000x5, .f32⟩
  | .local _ .vmem, ⟨14, _⟩ => ⟨S2000x5, .f32⟩
  | _, _ => ⟨S20000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_6 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x300 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S300x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x5 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x5 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S300x5 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x5 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S8000x300 : S_.BroadcastsInDim S8000x300 (![] : Fin 0 → Fin S8000x300.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x300_0_1 : S8000x1.BroadcastsInDim S8000x300 (![0, 1] : Fin 2 → Fin S8000x300.rank)
  transposes_S512x300_S300x512_1_0 : S512x300.Transposes [1, 0] S300x512
  bitsLt_bf16_f32 : FTy.bits .bf16 < FTy.bits .f32
  transposes_S512x1280_S1280x512_1_0 : S512x1280.Transposes [1, 0] S1280x512
  shapeCasts_S512_S1x512 : S512.ShapeCasts S1x512
  slices_S5x812_S5x512_0_300 : S5x812.Slices ![0, 300] S5x512
  transposes_S5x512_S512x5_1_0 : S5x512.Transposes [1, 0] S512x5
  inb_S1000x300_S1000x300_0_0 : ∀ a, (![0, 0] : Fin 2 → Nat) a + S1000x300.size a ≤ S1000x300.size a
  h_S1000x300 : 0 < S1000x300.numel
  shapeCasts_S1000x300_S1000x300 : S1000x300.ShapeCasts S1000x300
  inb_S1000x1280_S1000x1280_0_0 : ∀ a, (![0, 0] : Fin 2 → Nat) a + S1000x1280.size a ≤ S1000x1280.size a
  h_S1000x1280 : 0 < S1000x1280.numel
  shapeCasts_S1000x1280_S1000x1280 : S1000x1280.ShapeCasts S1000x1280
  inb_S300x512_S300x512_0_0 : ∀ a, (![0, 0] : Fin 2 → Nat) a + S300x512.size a ≤ S300x512.size a
  h_S300x512 : 0 < S300x512.numel
  shapeCasts_S300x512_S300x512 : S300x512.ShapeCasts S300x512
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x5_S512x5_0_0 : ∀ a, (![0, 0] : Fin 2 → Nat) a + S512x5.size a ≤ S512x5.size a
  h_S512x5 : 0 < S512x5.numel
  shapeCasts_S512x5_S512x5 : S512x5.ShapeCasts S512x5
  inb_S1000x5_S1000x5_0_0 : ∀ a, (![0, 0] : Fin 2 → Nat) a + S1000x5.size a ≤ S1000x5.size a
  h_S1000x5 : 0 < S1000x5.numel
  slices_S5x812_S5x300_0_0 : S5x812.Slices ![0, 0] S5x300
  transposes_S5x300_S300x5_1_0 : S5x300.Transposes [1, 0] S300x5
  inb_S2000x300_S2000x300_0_0 : ∀ a, (![0, 0] : Fin 2 → Nat) a + S2000x300.size a ≤ S2000x300.size a
  h_S2000x300 : 0 < S2000x300.numel
  shapeCasts_S2000x300_S2000x300 : S2000x300.ShapeCasts S2000x300
  inb_S300x5_S300x5_0_0 : ∀ a, (![0, 0] : Fin 2 → Nat) a + S300x5.size a ≤ S300x5.size a
  h_S300x5 : 0 < S300x5.numel
  shapeCasts_S300x5_S300x5 : S300x5.ShapeCasts S300x5
  inb_S2000x5_S2000x5_0_0 : ∀ a, (![0, 0] : Fin 2 → Nat) a + S2000x5.size a ≤ S2000x5.size a
  h_S2000x5 : 0 < S2000x5.numel
  bcast_S_S200000 : S_.BroadcastsInDim S200000 (![] : Fin 0 → Fin S200000.rank)
  bcast_S200000_S200000x1_0 : S200000.BroadcastsInDim S200000x1 (![0] : Fin 1 → Fin S200000x1.rank)
  shapeCasts_S5_S1x5 : S5.ShapeCasts S1x5
  bcast_S1x5_S200000x5_0_1 : S1x5.BroadcastsInDim S200000x5 (![0, 1] : Fin 2 → Fin S200000x5.rank)
  gather_S20000x300_S500000x1_S500000x300_1_0_n_n_0_1_1300_wf : GatherDims.WF S20000x300 S500000x1 S500000x300 [1] [0] [] [0] [] 1 ![1, 300]
  scatter_S8000x300_S500000x1_S500000x300_1_0_0_1_wf : ScatterDims.WF S8000x300 S500000x1 S500000x300 [1] [0] [0] 1
  scatter_S8000_S500000x1_S500000_n_0_0_1_wf : ScatterDims.WF S8000 S500000x1 S500000 [] [0] [0] 1
  dot_S1000x300_S300x512_S1000x512_1_0_0_1_n_n_wf : DotDims.WF S1000x300 S300x512 S1000x512 [1] [0] [0] [1] [] []
  dot_S1000x1280_S1280x512_S1000x512_1_0_0_1_n_n_wf : DotDims.WF S1000x1280 S1280x512 S1000x512 [1] [0] [0] [1] [] []
  dot_S1000x512_S512x5_S1000x5_1_0_0_1_n_n_wf : DotDims.WF S1000x512 S512x5 S1000x5 [1] [0] [0] [1] [] []
  dot_S2000x300_S300x5_S2000x5_1_0_0_1_n_n_wf : DotDims.WF S2000x300 S300x5 S2000x5 [1] [0] [0] [1] [] []
  gather_S20000x5_S200000x1_S200000x5_1_0_n_n_0_1_15_wf : GatherDims.WF S20000x5 S200000x1 S200000x5 [1] [0] [] [0] [] 1 ![1, 5]
  gather_S8000x5_S200000x1_S200000x5_1_0_n_n_0_1_15_wf : GatherDims.WF S8000x5 S200000x1 S200000x5 [1] [0] [] [0] [] 1 ![1, 5]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x300.size a ≤ S8000x300.size a
  hwx0_0 : ∀ i : grid0.Coords, EltTy.bits .bf16 = 32 ∨ (Rect.block (s := S8000x300) S1000x300.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1280.size a ≤ S8000x1280.size a
  hwx0_1 : ∀ i : grid0.Coords, EltTy.bits .bf16 = 32 ∨ (Rect.block (s := S8000x1280) S1000x1280.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x512.size a ≤ S300x512.size a
  hwx0_2 : ∀ i : grid0.Coords, EltTy.bits .bf16 = 32 ∨ (Rect.block (s := S300x512) S300x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1280x512.size a ≤ S1280x512.size a
  hwx0_3 : ∀ i : grid0.Coords, EltTy.bits .bf16 = 32 ∨ (Rect.block (s := S1280x512) S1280x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x5.size a ≤ S512x5.size a
  hwx0_5 : ∀ i : grid0.Coords, EltTy.bits .bf16 = 32 ∨ (Rect.block (s := S512x5) S512x5.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x5.size a ≤ S8000x5.size a
  hwx0_6 : ∀ i : grid0.Coords, EltTy.bits .f32 = 32 ∨ (Rect.block (s := S8000x5) S1000x5.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S20000x300.size a
  hwx1_0 : ∀ i : grid1.Coords, EltTy.bits .bf16 = 32 ∨ (Rect.block (s := S20000x300) S2000x300.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x5.size a ≤ S300x5.size a
  hwx1_1 : ∀ i : grid1.Coords, EltTy.bits .bf16 = 32 ∨ (Rect.block (s := S300x5) S300x5.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x5.size a ≤ S20000x5.size a
  hwx1_2 : ∀ i : grid1.Coords, EltTy.bits .f32 = 32 ∨ (Rect.block (s := S20000x5) S2000x5.size (cc1_transform_2 i) (hinb1_2 i)).WholeWords (EltTy.packing .f32)

variable [Facts₀]

def gather_S20000x300_S500000x1_S500000x300_1_0_n_n_0_1_1300 : GatherDims S20000x300 S500000x1 S500000x300 where
  offsetDims := [1]
  collapsedSliceDims := [0]
  operandBatchingDims := []
  startIndicesBatchingDims := []
  startIndexMap := [0]
  indexVectorDim := 1
  sliceSizes := ![1, 300]
  wf := gather_S20000x300_S500000x1_S500000x300_1_0_n_n_0_1_1300_wf
def scatter_S8000x300_S500000x1_S500000x300_1_0_0_1 : ScatterDims S8000x300 S500000x1 S500000x300 where
  updateWindowDims := [1]
  insertedWindowDims := [0]
  scatterDimsToOperandDims := [0]
  indexVectorDim := 1
  wf := scatter_S8000x300_S500000x1_S500000x300_1_0_0_1_wf
def scatter_S8000_S500000x1_S500000_n_0_0_1 : ScatterDims S8000 S500000x1 S500000 where
  updateWindowDims := []
  insertedWindowDims := [0]
  scatterDimsToOperandDims := [0]
  indexVectorDim := 1
  wf := scatter_S8000_S500000x1_S500000_n_0_0_1_wf
def dot_S1000x300_S300x512_S1000x512_1_0_0_1_n_n : DotDims S1000x300 S300x512 S1000x512 where
  lhsContracting := [1]
  rhsContracting := [0]
  lhsNonContracting := [0]
  rhsNonContracting := [1]
  lhsBatch := []
  rhsBatch := []
  wf := dot_S1000x300_S300x512_S1000x512_1_0_0_1_n_n_wf
def dot_S1000x1280_S1280x512_S1000x512_1_0_0_1_n_n : DotDims S1000x1280 S1280x512 S1000x512 where
  lhsContracting := [1]
  rhsContracting := [0]
  lhsNonContracting := [0]
  rhsNonContracting := [1]
  lhsBatch := []
  rhsBatch := []
  wf := dot_S1000x1280_S1280x512_S1000x512_1_0_0_1_n_n_wf
def dot_S1000x512_S512x5_S1000x5_1_0_0_1_n_n : DotDims S1000x512 S512x5 S1000x5 where
  lhsContracting := [1]
  rhsContracting := [0]
  lhsNonContracting := [0]
  rhsNonContracting := [1]
  lhsBatch := []
  rhsBatch := []
  wf := dot_S1000x512_S512x5_S1000x5_1_0_0_1_n_n_wf
def dot_S2000x300_S300x5_S2000x5_1_0_0_1_n_n : DotDims S2000x300 S300x5 S2000x5 where
  lhsContracting := [1]
  rhsContracting := [0]
  lhsNonContracting := [0]
  rhsNonContracting := [1]
  lhsBatch := []
  rhsBatch := []
  wf := dot_S2000x300_S300x5_S2000x5_1_0_0_1_n_n_wf
def gather_S20000x5_S200000x1_S200000x5_1_0_n_n_0_1_15 : GatherDims S20000x5 S200000x1 S200000x5 where
  offsetDims := [1]
  collapsedSliceDims := [0]
  operandBatchingDims := []
  startIndicesBatchingDims := []
  startIndexMap := [0]
  indexVectorDim := 1
  sliceSizes := ![1, 5]
  wf := gather_S20000x5_S200000x1_S200000x5_1_0_n_n_0_1_15_wf
def gather_S8000x5_S200000x1_S200000x5_1_0_n_n_0_1_15 : GatherDims S8000x5 S200000x1 S200000x5 where
  offsetDims := [1]
  collapsedSliceDims := [0]
  operandBatchingDims := []
  startIndicesBatchingDims := []
  startIndexMap := [0]
  indexVectorDim := 1
  sliceSizes := ![1, 5]
  wf := gather_S8000x5_S200000x1_S200000x5_1_0_n_n_0_1_15_wf

abbrev win0_0 : Pipeline.Window sig grid0 :=
  Pipeline.Window.ofSpec (Memref.whole main_v26) S1000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1000x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S300x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1280x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S512x5.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1000x5.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S300x5.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S2000x5.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S20000x300 : Shape := ⟨2, ![20000, 300]⟩
abbrev S8000x1280 : Shape := ⟨2, ![8000, 1280]⟩
abbrev S500000 : Shape := ⟨1, ![500000]⟩
abbrev S200000 : Shape := ⟨1, ![200000]⟩
abbrev S512x300 : Shape := ⟨2, ![512, 300]⟩
abbrev S512 : Shape := ⟨1, ![512]⟩
abbrev S512x1280 : Shape := ⟨2, ![512, 1280]⟩
abbrev S5x812 : Shape := ⟨2, ![5, 812]⟩
abbrev S5 : Shape := ⟨1, ![5]⟩
abbrev S_ : Shape := ⟨0, ![]⟩
abbrev S500000x1 : Shape := ⟨2, ![500000, 1]⟩
abbrev S500000x300 : Shape := ⟨2, ![500000, 300]⟩
abbrev S8000x300 : Shape := ⟨2, ![8000, 300]⟩
abbrev S8000 : Shape := ⟨1, ![8000]⟩
abbrev S8000x1 : Shape := ⟨2, ![8000, 1]⟩
abbrev S300x512 : Shape := ⟨2, ![300, 512]⟩
abbrev S8000x512 : Shape := ⟨2, ![8000, 512]⟩
abbrev S1x512 : Shape := ⟨2, ![1, 512]⟩
abbrev S1280x512 : Shape := ⟨2, ![1280, 512]⟩
abbrev S200000x1 : Shape := ⟨2, ![200000, 1]⟩
abbrev S200000x300 : Shape := ⟨2, ![200000, 300]⟩
abbrev S200000x512 : Shape := ⟨2, ![200000, 512]⟩
abbrev S200000x812 : Shape := ⟨2, ![200000, 812]⟩
abbrev S812x5 : Shape := ⟨2, ![812, 5]⟩
abbrev S200000x5 : Shape := ⟨2, ![200000, 5]⟩
abbrev S1x5 : Shape := ⟨2, ![1, 5]⟩

abbrev nBuf : Space → Nat
  | .hbm => 69
  | .vmem => 0
  | .smem => 0
  | _ => 0

abbrev bufTy : (tb : Table) → Fin (tcTables nBuf tb) → BufTy
  | .hbm, ⟨0, _⟩ => ⟨S20000x300, .f32⟩
  | .hbm, ⟨1, _⟩ => ⟨S8000x1280, .f32⟩
  | .hbm, ⟨2, _⟩ => ⟨S500000, .i32⟩
  | .hbm, ⟨3, _⟩ => ⟨S500000, .i32⟩
  | .hbm, ⟨4, _⟩ => ⟨S200000, .i32⟩
  | .hbm, ⟨5, _⟩ => ⟨S200000, .i32⟩
  | .hbm, ⟨6, _⟩ => ⟨S512x300, .f32⟩
  | .hbm, ⟨7, _⟩ => ⟨S512, .f32⟩
  | .hbm, ⟨8, _⟩ => ⟨S512x1280, .f32⟩
  | .hbm, ⟨9, _⟩ => ⟨S5x812, .f32⟩
  | .hbm, ⟨10, _⟩ => ⟨S5, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x300, .f32⟩
  | .hbm, ⟨20, _⟩ => ⟨S_, .f32⟩
  | .hbm, ⟨21, _⟩ => ⟨S8000x300, .f32⟩
  | .hbm, ⟨22, _⟩ => ⟨S500000x1, .i32⟩
  | .hbm, ⟨23, _⟩ => ⟨S8000x300, .f32⟩
  | .hbm, ⟨24, _⟩ => ⟨S_, .f32⟩
  | .hbm, ⟨25, _⟩ => ⟨S500000, .f32⟩
  | .hbm, ⟨26, _⟩ => ⟨S_, .f32⟩
  | .hbm, ⟨27, _⟩ => ⟨S8000, .f32⟩
  | .hbm, ⟨28, _⟩ => ⟨S500000x1, .i32⟩
  | .hbm, ⟨29, _⟩ => ⟨S8000, .f32⟩
  | .hbm, ⟨30, _⟩ => ⟨S_, .f32⟩
  | .hbm, ⟨31, _⟩ => ⟨S_, .f32⟩
  | .hbm, ⟨32, _⟩ => ⟨S8000, .f32⟩
  | .hbm, ⟨33, _⟩ => ⟨S8000, .f32⟩
  | .hbm, ⟨34, _⟩ => ⟨S8000x1, .f32⟩
  | .hbm, ⟨35, _⟩ => ⟨S8000x300, .f32⟩
  | .hbm, ⟨36, _⟩ => ⟨S8000x300, .f32⟩
  | .hbm, ⟨37, _⟩ => ⟨S300x512, .f32⟩
  | .hbm, ⟨38, _⟩ => ⟨S8000x512, .f32⟩
  | .hbm, ⟨39, _⟩ => ⟨S1x512, .f32⟩
  | .hbm, ⟨40, _⟩ => ⟨S8000x512, .f32⟩
  | .hbm, ⟨41, _⟩ => ⟨S8000x512, .f32⟩
  | .hbm, ⟨42, _⟩ => ⟨S1280x512, .f32⟩
  | .hbm, ⟨43, _⟩ => ⟨S8000x512, .f32⟩
  | .hbm, ⟨44, _⟩ => ⟨S8000x512, .f32⟩
  | .hbm, ⟨45, _⟩ => ⟨S_, .i32⟩
  | .hbm, ⟨46, _⟩ => ⟨S200000, .i32⟩
  | .hbm, ⟨47, _⟩ => ⟨S200000, .i1⟩
  | .hbm, ⟨48, _⟩ => ⟨S_, .i32⟩
  | .hbm, ⟨49, _⟩ => ⟨S200000, .i32⟩
  | .hbm, ⟨50, _⟩ => ⟨S200000, .i32⟩
  | .hbm, ⟨51, _⟩ => ⟨S200000, .i32⟩
  | .hbm, ⟨52, _⟩ => ⟨S200000x1, .i32⟩
  | .hbm, ⟨53, _⟩ => ⟨S200000x300, .f32⟩
  | .hbm, ⟨54, _⟩ => ⟨S_, .i32⟩
  | .hbm, ⟨55, _⟩ => ⟨S200000, .i32⟩
  | .hbm, ⟨56, _⟩ => ⟨S200000, .i1⟩
  | .hbm, ⟨57, _⟩ => ⟨S_, .i32⟩
  | .hbm, ⟨58, _⟩ => ⟨S200000, .i32⟩
  | .hbm, ⟨59, _⟩ => ⟨S200000, .i32⟩
  | .hbm, ⟨60, _⟩ => ⟨S200000, .i32⟩
  | .hbm, ⟨61, _⟩ => ⟨S200000x1, .i32⟩
  | .hbm, ⟨62, _⟩ => ⟨S200000x512, .f32⟩
  | .hbm, ⟨63, _⟩ => ⟨S200000x812, .f32⟩
  | .hbm, ⟨64, _⟩ => ⟨S812x5, .f32⟩
  | .hbm, ⟨65, _⟩ => ⟨S200000x5, .f32⟩
  | .hbm, ⟨66, _⟩ => ⟨S1x5, .f32⟩
  | .hbm, ⟨67, _⟩ => ⟨S200000x5, .f32⟩
  | .hbm, ⟨68, _⟩ => ⟨S200000x5, .f32⟩
  | _, _ => ⟨S20000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S8000x300 : S_.BroadcastsInDim S8000x300 (![] : Fin 0 → Fin S8000x300.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x300_0_1 : S8000x1.BroadcastsInDim S8000x300 (![0, 1] : Fin 2 → Fin S8000x300.rank)
  transposes_S512x300_S300x512_1_0 : S512x300.Transposes [1, 0] S300x512
  bcast_S512_S1x512_1 : S512.BroadcastsInDim S1x512 (![1] : Fin 1 → Fin S1x512.rank)
  bcast_S1x512_S8000x512_0_1 : S1x512.BroadcastsInDim S8000x512 (![0, 1] : Fin 2 → Fin S8000x512.rank)
  transposes_S512x1280_S1280x512_1_0 : S512x1280.Transposes [1, 0] S1280x512
  bcast_S_S200000 : S_.BroadcastsInDim S200000 (![] : Fin 0 → Fin S200000.rank)
  bcast_S200000_S200000x1_0 : S200000.BroadcastsInDim S200000x1 (![0] : Fin 1 → Fin S200000x1.rank)
  concatenates_S200000x300_S200000x512_S200000x812_d1 : Shape.Concatenates [S200000x300, S200000x512] S200000x812 1
  transposes_S5x812_S812x5_1_0 : S5x812.Transposes [1, 0] S812x5
  bcast_S5_S1x5_1 : S5.BroadcastsInDim S1x5 (![1] : Fin 1 → Fin S1x5.rank)
  bcast_S1x5_S200000x5_0_1 : S1x5.BroadcastsInDim S200000x5 (![0, 1] : Fin 2 → Fin S200000x5.rank)
  gather_S20000x300_S500000x1_S500000x300_1_0_n_n_0_1_1300_wf : GatherDims.WF S20000x300 S500000x1 S500000x300 [1] [0] [] [0] [] 1 ![1, 300]
  scatter_S8000x300_S500000x1_S500000x300_1_0_0_1_wf : ScatterDims.WF S8000x300 S500000x1 S500000x300 [1] [0] [0] 1
  scatter_S8000_S500000x1_S500000_n_0_0_1_wf : ScatterDims.WF S8000 S500000x1 S500000 [] [0] [0] 1
  dot_S8000x300_S300x512_S8000x512_1_0_0_1_n_n_wf : DotDims.WF S8000x300 S300x512 S8000x512 [1] [0] [0] [1] [] []
  dot_S8000x1280_S1280x512_S8000x512_1_0_0_1_n_n_wf : DotDims.WF S8000x1280 S1280x512 S8000x512 [1] [0] [0] [1] [] []
  gather_S20000x300_S200000x1_S200000x300_1_0_n_n_0_1_1300_wf : GatherDims.WF S20000x300 S200000x1 S200000x300 [1] [0] [] [0] [] 1 ![1, 300]
  gather_S8000x512_S200000x1_S200000x512_1_0_n_n_0_1_1512_wf : GatherDims.WF S8000x512 S200000x1 S200000x512 [1] [0] [] [0] [] 1 ![1, 512]
  dot_S200000x812_S812x5_S200000x5_1_0_0_1_n_n_wf : DotDims.WF S200000x812 S812x5 S200000x5 [1] [0] [0] [1] [] []

variable [Facts₀]

def gather_S20000x300_S500000x1_S500000x300_1_0_n_n_0_1_1300 : GatherDims S20000x300 S500000x1 S500000x300 where
  offsetDims := [1]
  collapsedSliceDims := [0]
  operandBatchingDims := []
  startIndicesBatchingDims := []
  startIndexMap := [0]
  indexVectorDim := 1
  sliceSizes := ![1, 300]
  wf := gather_S20000x300_S500000x1_S500000x300_1_0_n_n_0_1_1300_wf
def scatter_S8000x300_S500000x1_S500000x300_1_0_0_1 : ScatterDims S8000x300 S500000x1 S500000x300 where
  updateWindowDims := [1]
  insertedWindowDims := [0]
  scatterDimsToOperandDims := [0]
  indexVectorDim := 1
  wf := scatter_S8000x300_S500000x1_S500000x300_1_0_0_1_wf
def scatter_S8000_S500000x1_S500000_n_0_0_1 : ScatterDims S8000 S500000x1 S500000 where
  updateWindowDims := []
  insertedWindowDims := [0]
  scatterDimsToOperandDims := [0]
  indexVectorDim := 1
  wf := scatter_S8000_S500000x1_S500000_n_0_0_1_wf
def dot_S8000x300_S300x512_S8000x512_1_0_0_1_n_n : DotDims S8000x300 S300x512 S8000x512 where
  lhsContracting := [1]
  rhsContracting := [0]
  lhsNonContracting := [0]
  rhsNonContracting := [1]
  lhsBatch := []
  rhsBatch := []
  wf := dot_S8000x300_S300x512_S8000x512_1_0_0_1_n_n_wf
def dot_S8000x1280_S1280x512_S8000x512_1_0_0_1_n_n : DotDims S8000x1280 S1280x512 S8000x512 where
  lhsContracting := [1]
  rhsContracting := [0]
  lhsNonContracting := [0]
  rhsNonContracting := [1]
  lhsBatch := []
  rhsBatch := []
  wf := dot_S8000x1280_S1280x512_S8000x512_1_0_0_1_n_n_wf
def gather_S20000x300_S200000x1_S200000x300_1_0_n_n_0_1_1300 : GatherDims S20000x300 S200000x1 S200000x300 where
  offsetDims := [1]
  collapsedSliceDims := [0]
  operandBatchingDims := []
  startIndicesBatchingDims := []
  startIndexMap := [0]
  indexVectorDim := 1
  sliceSizes := ![1, 300]
  wf := gather_S20000x300_S200000x1_S200000x300_1_0_n_n_0_1_1300_wf
def gather_S8000x512_S200000x1_S200000x512_1_0_n_n_0_1_1512 : GatherDims S8000x512 S200000x1 S200000x512 where
  offsetDims := [1]
  collapsedSliceDims := [0]
  operandBatchingDims := []
  startIndicesBatchingDims := []
  startIndexMap := [0]
  indexVectorDim := 1
  sliceSizes := ![1, 512]
  wf := gather_S8000x512_S200000x1_S200000x512_1_0_n_n_0_1_1512_wf
def dot_S200000x812_S812x5_S200000x5_1_0_0_1_n_n : DotDims S200000x812 S812x5 S200000x5 where
  lhsContracting := [1]
  rhsContracting := [0]
  lhsNonContracting := [0]
  rhsNonContracting := [1]
  lhsBatch := []
  rhsBatch := []
  wf := dot_S200000x812_S812x5_S200000x5_1_0_0_1_n_n_wf

class Facts : Prop extends Facts₀ where

variable [Facts]
-- ==== Proof.ResultRun.lean ====
/-
  The whole program's run with its result named.

  From any launch memory, every weakly fair execution of the program on the TensorCores terminates without a fault;
  the result buffer then holds what the last stretch of host operations leaves in it, computed from the contents at the
  second kernel's exit (the fold of the program's segments from the launch memory: host operations applied in order,
  each kernel region replacing its output array by what its write-backs leave), and every argument array is as
  launched.  The segments, the per-region proof data and the chain of thread states between segments are the ones the
  frame of this program is proved with; only the property read off the final state is larger: it includes the
  result buffer.
-/
import proofs.«158668_j33303176413371_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this statement, which takes
-- unfolding plain definitions in a metavariable's type
set_option backward.isDefEq.respectTransparency.types false in
/-- The run: the result buffer at the last boundary's contents, the arguments as launched. -/
theorem run_result : θ_run defs (onTc (τ := τ) (main (F := F))) ⟨m, fun _ => 0, ρ⟩ (fun r => ∀ c : Dev nD,
      r.2.mem ((c.tc : Thread nD τ).loc main_v51) = W7 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v51 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.ResultRun

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«158668_j33303176413371_2_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.BodyAt.lean ====
/-
  The two kernel bodies, read at one entry of the block they store, at the ideal values.

  The drug kernel stores, for a block of 2000 drug rows x and the 300 x 5 weight w,
      out[p, q] = sum_{k < 300} x[p, k] * w[k, q].
  The protein kernel stores, for a block of 1000 rows of the neighbourhood mean m and of the protein features xp, the
  weights wl (300 x 512), wr (1280 x 512), the bias row b (1 x 512) and the classifier's protein part wp (512 x 5),
      out[p, q] = sum_{h < 512} ((sum_k m[p, k] * wl[k, h] + sum_j xp[p, j] * wr[j, h]) + b[0, h]) * wp[h, q]:
  three matrix-unit products into zero accumulators, two additions, the narrowing to bf16 the identity.
-/
import proofs.«158668_j33303176413371_2_alg».proof.Proof.Gen.KernelIdeal.Skeleton
import proofs.«158668_j33303176413371_2_alg».proof.Proof.LibPlainLists
import Idealize.ShloMosaic.Lib.ValueLayout
import Idealize.ShloMosaic.Lib.Pipeline.Value

noncomputable section

namespace Cert.KernelIdeal.BodyAt

open Cert.KernelIdeal Cert.KernelIdeal.Gen Idealize.ShloMosaic Idealize.ShloMosaic.ValueIdx Cert.LibMatmulSum

/-- The drug kernel's stored block at (p, q). -/
theorem drug_at (x : FVec Ideal S2000x300 .bf16) (w : FVec Ideal S300x5 .bf16) (p : Fin 2000) (q : Fin 5) :
    k1_pay1 (F := Ideal) x w (ix2 p q) = ∑ k : Fin 300, x (ix2 p k) * w (ix2 k q) := by
  unfold k1_pay1
  simp only [shapeCast_self]
  exact matmul_zero_at (Plain.of_lists dot_S2000x300_S300x5_S2000x5_1_0_0_1_n_n rfl rfl rfl rfl rfl rfl) none x w p q

/-- The protein kernel's stored block at (p, q). -/
theorem prot_at (m : FVec Ideal S1000x300 .bf16) (xp : FVec Ideal S1000x1280 .bf16) (wl : FVec Ideal S300x512 .bf16)
    (wr : FVec Ideal S1280x512 .bf16) (b : FVec Ideal S1x512 .f32) (wp : FVec Ideal S512x5 .bf16) (p : Fin 1000) (q : Fin 5) :
    k0_pay1 (F := Ideal) m xp wl wr b wp (ix2 p q)
      = ∑ h : Fin 512, (((∑ k : Fin 300, m (ix2 p k) * wl (ix2 k h)) + ∑ j : Fin 1280, xp (ix2 p j) * wr (ix2 j h))
          + b (ix2 (0 : Fin 1) h)) * wp (ix2 h q) := by
  unfold k0_pay1
  simp only [shapeCast_self]
  refine (matmul_zero_at (Plain.of_lists dot_S1000x512_S512x5_S1000x5_1_0_0_1_n_n rfl rfl rfl rfl rfl rfl) none _ wp p q).trans ?_
  refine Finset.sum_congr rfl fun h _ => ?_
  congr 1
  rw [truncf_apply, addf_apply, addf_apply]
  refine congrArg₂ (· + ·) (congrArg₂ (· + ·) ?_ ?_) ?_
  · exact matmul_zero_at (Plain.of_lists dot_S1000x300_S300x512_S1000x512_1_0_0_1_n_n rfl rfl rfl rfl rfl rfl) none m wl p h
  · exact matmul_zero_at (Plain.of_lists dot_S1000x1280_S1280x512_S1000x512_1_0_0_1_n_n rfl rfl rfl rfl rfl rfl) none xp wr p h
  · exact broadcastTo_1b_ab_apply b broadcasts_S1x512_S1000x512 p h

end Cert.KernelIdeal.BodyAt

end
-- ==== Proof.Blocks.lean ====
/-
  What each kernel region leaves in its output array, as ONE function of the arrays the region finds, at the ideal values.

  The drug region walks 10 blocks of 2000 rows; block t of its output is the product of block t of the drug features
  (rows 2000 t .. 2000 t + 1999) with the whole 300 x 5 weight, so row r of the output depends only on row r of the
  features: the array ends as  features x weight.  The protein region walks 8 blocks of 1000 rows in the same way, with
  two row-blocked inputs (the neighbourhood mean and the protein features) and four inputs passed whole; row r of its
  output depends only on row r of each row-blocked input.  Every row lies in exactly the block  r / rows-per-block, and
  every block is written back, so the blocks cover the arrays.
-/
import proofs.«158668_j33303176413371_2_alg».proof.Proof.Gen.KernelIdeal.Frame
import proofs.«158668_j33303176413371_2_alg».proof.Proof.BodyAt

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-! ## The drug region -/

/-- features x weight, entry by entry. -/
def drugArr (X : S20000x300.Idx → EReal) (Wd : S300x5.Idx → EReal) : S20000x5.Idx → EReal :=
  fun i => ∑ k : Fin 300, X (ix2 (⟨(i 0).val, idx2_lt0 i⟩ : Fin 20000) k) * Wd (ix2 k (⟨(i 1).val, idx2_lt1 i⟩ : Fin 5))

/-- One stored block: if row j0 of the block x is row i0 of X, and column j1 of w is column i1 of Wd, the body's value
    at (j0, j1) is the product's entry (i0, i1). -/
theorem drug_block (X : S20000x300.Idx → EReal) (Wd : S300x5.Idx → EReal)
    (x : FVec Ideal S2000x300 .bf16) (w : FVec Ideal S300x5 .bf16) (j : S2000x5.Idx) (i : S20000x5.Idx)
    (hx : ∀ k : Fin 300, x (ix2 (⟨(j 0).val, idx2_lt0 j⟩ : Fin 2000) k) = X (ix2 (⟨(i 0).val, idx2_lt0 i⟩ : Fin 20000) k))
    (hw : ∀ k : Fin 300, w (ix2 k (⟨(j 1).val, idx2_lt1 j⟩ : Fin 5)) = Wd (ix2 k (⟨(i 1).val, idx2_lt1 i⟩ : Fin 5))) :
    k1_pay1 (F := Ideal) x w j = drugArr X Wd i := by
  refine (congrArg (k1_pay1 (F := Ideal) x w) (eq_ix2 j)).trans ?_
  refine (BodyAt.drug_at x w (⟨(j 0).val, idx2_lt0 j⟩ : Fin 2000) (⟨(j 1).val, idx2_lt1 j⟩ : Fin 5)).trans ?_
  unfold drugArr
  exact Finset.sum_congr rfl fun k _ => congrArg₂ (· * ·) (hx k) (hw k)

/-- The printed index maps over the grid: the features' block moves with the output's, the weight's stays. -/
theorem drug_idx : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every row block is some point's. -/
theorem drug_onto : ∀ q : Fin 10, ∃ t : Fin cfg1.N, win1_2.index t = ![q.val, 0] :=
  (by decide +kernel : ∀ q : Fin 10, ∃ t : Fin grid1.N, win1_2.index t = ![q.val, 0])

/-- What point t writes back is block t of the product of the arrays the region finds. -/
theorem drug_flushed (c : Dev nD) (t : Fin cfg1.N) :
    (dat1 V c).flushed 2 t = ((cfg1.win 2).blk t).view.read (Elt Ideal) (drugArr (V c main_v32) (V c main_v31)) := by
  show (cfg1.win 2).cut (grid1.coords t) ((dat1 V c).after 2 t) = _
  rw [after1_2]
  unfold out1_2
  rw [View.canon_unit_zero offsets_zero]
  simp only [View.ld_unit_zero (S := S2000x300) offsets_zero, View.ld_unit_zero (S := S300x5) offsets_zero]
  obtain ⟨e0, e1, e2, e3, e4⟩ := drug_idx t
  funext j
  show k1_pay1 (F := Ideal) (iblk1 V c 0 t) (iblk1 V c 1 t) j
    = drugArr (V c main_v32) (V c main_v31) (((cfg1.win 2).blk t).view.emb j)
  refine drug_block (V c main_v32) (V c main_v31) (iblk1 V c 0 t) (iblk1 V c 1 t) j (((cfg1.win 2).blk t).view.emb j)
    (fun k => ?_) (fun k => ?_)
  · show V c main_v32 (((cfg1.win 0).blk t).view.emb (ix2 (⟨(j 0).val, idx2_lt0 j⟩ : Fin 2000) k)) = _
    refine congrArg (V c main_v32) (funext fun a => Fin.ext ?_)
    match a with
    | ⟨0, _⟩ =>
      show win1_0.index t (0 : Fin 2) * 2000 + 1 * (j 0).val = win1_2.index t (0 : Fin 2) * 2000 + 1 * (j 0).val
      omega
    | ⟨1, _⟩ =>
      show win1_0.index t (1 : Fin 2) * 300 + 1 * k.val = k.val
      omega
  · show V c main_v31 (((cfg1.win 1).blk t).view.emb (ix2 k (⟨(j 1).val, idx2_lt1 j⟩ : Fin 5))) = _
    refine congrArg (V c main_v31) (funext fun a => Fin.ext ?_)
    match a with
    | ⟨0, _⟩ =>
      show win1_1.index t (0 : Fin 2) * 300 + 1 * k.val = k.val
      omega
    | ⟨1, _⟩ =>
      show win1_1.index t (1 : Fin 2) * 5 + 1 * (j 1).val = win1_2.index t (1 : Fin 2) * 5 + 1 * (j 1).val
      omega

/-- An index of the output array is in point t's block iff each coordinate is in the block's range on its axis. -/
theorem drug_mem_blk (t : Fin cfg1.N) (i : S20000x5.Idx) :
    i ∈ ((cfg1.win 2).blk t).view.set ↔ ∀ a : Fin 2, win1_2.index t a * S2000x5.size a ≤ (i a).val
      ∧ (i a).val < win1_2.index t a * S2000x5.size a + S2000x5.size a := by
  show i ∈ ((View.whole main_v33).slice (win1_2.rect t)).set ↔ _
  rw [View.set_slice_whole, Rect.mem_set_unit]
  exact Iff.rfl

/-- Row r is in the block of point r / 2000, and that point writes back. -/
theorem drug_cover (i : S20000x5.Idx) :
    ∃ t : Fin cfg1.N, (cfg1.win 2).flush t = true ∧ i ∈ ((cfg1.win 2).blk t).view.set := by
  have hi0 : (i 0).val < 20000 := idx2_lt0 i
  have hi1 : (i 1).val < 5 := idx2_lt1 i
  obtain ⟨t, ht⟩ := drug_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [drug_mem_blk]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 5 ≤ (i 1).val ∧ (i 1).val < win1_2.index t (1 : Fin 2) * 5 + 5
    omega

/-- THE DRUG REGION'S OUTPUT ARRAY after its run. -/
theorem drug_final (c : Dev nD) : (dat1 V c).arrAt 2 cfg1.N = drugArr (V c main_v32) (V c main_v31) :=
  (dat1 V c).arrAt_eq_of_cover 2 _ (fun t _ => drug_flushed V c t) drug_cover

/-! ## The protein region -/

/-- ((mean x wl + xp x wr) + bias row) x wp, entry by entry. -/
def protArr (Mn : S8000x300.Idx → EReal) (Xp : S8000x1280.Idx → EReal) (wl : S300x512.Idx → EReal)
    (wr : S1280x512.Idx → EReal) (b : S1x512.Idx → EReal) (wp : S512x5.Idx → EReal) : S8000x5.Idx → EReal :=
  fun i => ∑ h : Fin 512,
    (((∑ k : Fin 300, Mn (ix2 (⟨(i 0).val, idx2_lt0 i⟩ : Fin 8000) k) * wl (ix2 k h))
        + ∑ j : Fin 1280, Xp (ix2 (⟨(i 0).val, idx2_lt0 i⟩ : Fin 8000) j) * wr (ix2 j h))
      + b (ix2 (0 : Fin 1) h)) * wp (ix2 h (⟨(i 1).val, idx2_lt1 i⟩ : Fin 5))

/-- One stored block: the two row-blocked inputs read at the array's row, the other four passed whole. -/
theorem prot_block (Mn : S8000x300.Idx → EReal) (Xp : S8000x1280.Idx → EReal)
    (wl : FVec Ideal S300x512 .bf16) (wr : FVec Ideal S1280x512 .bf16) (b : FVec Ideal S1x512 .f32) (wp : FVec Ideal S512x5 .bf16)
    (m : FVec Ideal S1000x300 .bf16) (xp : FVec Ideal S1000x1280 .bf16)
    (wl' : FVec Ideal S300x512 .bf16) (wr' : FVec Ideal S1280x512 .bf16) (b' : FVec Ideal S1x512 .f32) (wp' : FVec Ideal S512x5 .bf16)
    (j : S1000x5.Idx) (i : S8000x5.Idx)
    (hm : ∀ k : Fin 300, m (ix2 (⟨(j 0).val, idx2_lt0 j⟩ : Fin 1000) k) = Mn (ix2 (⟨(i 0).val, idx2_lt0 i⟩ : Fin 8000) k))
    (hxp : ∀ k : Fin 1280, xp (ix2 (⟨(j 0).val, idx2_lt0 j⟩ : Fin 1000) k) = Xp (ix2 (⟨(i 0).val, idx2_lt0 i⟩ : Fin 8000) k))
    (hwl : wl' = wl) (hwr : wr' = wr) (hb : b' = b) (hwp : wp' = wp) (hq : (j 1).val = (i 1).val) :
    k0_pay1 (F := Ideal) m xp wl' wr' b' wp' j = protArr Mn Xp wl wr b wp i := by
  subst hwl hwr hb hwp
  refine (congrArg (k0_pay1 (F := Ideal) m xp wl' wr' b' wp') (eq_ix2 j)).trans ?_
  refine (BodyAt.prot_at m xp wl' wr' b' wp' (⟨(j 0).val, idx2_lt0 j⟩ : Fin 1000) (⟨(j 1).val, idx2_lt1 j⟩ : Fin 5)).trans ?_
  unfold protArr
  have hcol : (⟨(j 1).val, idx2_lt1 j⟩ : Fin 5) = ⟨(i 1).val, idx2_lt1 i⟩ := Fin.ext hq
  rw [hcol]
  refine Finset.sum_congr rfl fun h _ => ?_
  refine congrArg (· * wp' (ix2 h (⟨(i 1).val, idx2_lt1 i⟩ : Fin 5))) ?_
  refine congrArg (· + b' (ix2 (0 : Fin 1) h)) ?_
  exact congrArg₂ (· + ·) (Finset.sum_congr rfl fun k _ => congrArg (· * wl' (ix2 k h)) (hm k))
    (Finset.sum_congr rfl fun k _ => congrArg (· * wr' (ix2 k h)) (hxp k))

/-- The printed index maps over the grid: the two row-blocked inputs move with the output, the other four stay. -/
theorem prot_idx : ∀ t : Fin cfg0.N, win0_0.index t (0 : Fin 2) = win0_6.index t (0 : Fin 2)
    ∧ win0_0.index t (1 : Fin 2) = 0
    ∧ win0_1.index t (0 : Fin 2) = win0_6.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 :=
  (by decide +kernel : ∀ t : Fin grid0.N, _)

/-- Every row block is some point's. -/
theorem prot_onto : ∀ q : Fin 8, ∃ t : Fin cfg0.N, win0_6.index t = ![q.val, 0] :=
  (by decide +kernel : ∀ q : Fin 8, ∃ t : Fin grid0.N, win0_6.index t = ![q.val, 0])

/-- What point t writes back is block t of the function of the arrays the region finds. -/
theorem prot_flushed (c : Dev nD) (t : Fin cfg0.N) :
    (dat0 V c).flushed 6 t = ((cfg0.win 6).blk t).view.read (Elt Ideal)
      (protArr (V c main_v26) (V c main_v27) (V c main_v19) (V c main_v21) (V c main_v22) (V c main_v25)) := by
  show (cfg0.win 6).cut (grid0.coords t) ((dat0 V c).after 6 t) = _
  rw [after0_6]
  unfold out0_6
  rw [View.canon_unit_zero offsets_zero]
  simp only [View.ld_unit_zero (S := S1000x300) offsets_zero, View.ld_unit_zero (S := S1000x1280) offsets_zero,
    View.ld_unit_zero (S := S300x512) offsets_zero, View.ld_unit_zero (S := S1280x512) offsets_zero,
    View.ld_unit_zero (S := S1x512) offsets_zero, View.ld_unit_zero (S := S512x5) offsets_zero]
  obtain ⟨e0, e1, e2, e3, e4, e5, e6, e7, e8, e9, e10, e11, e12⟩ := prot_idx t
  funext j
  show k0_pay1 (F := Ideal) (iblk0 V c 0 t) (iblk0 V c 1 t) (iblk0 V c 2 t) (iblk0 V c 3 t) (iblk0 V c 4 t) (iblk0 V c 5 t) j
    = protArr (V c main_v26) (V c main_v27) (V c main_v19) (V c main_v21) (V c main_v22) (V c main_v25)
        (((cfg0.win 6).blk t).view.emb j)
  refine prot_block (V c main_v26) (V c main_v27) (V c main_v19) (V c main_v21) (V c main_v22) (V c main_v25)
    (iblk0 V c 0 t) (iblk0 V c 1 t) (iblk0 V c 2 t) (iblk0 V c 3 t) (iblk0 V c 4 t) (iblk0 V c 5 t) j
    (((cfg0.win 6).blk t).view.emb j) (fun k => ?_) (fun k => ?_) ?_ ?_ ?_ ?_ ?_
  · show V c main_v26 (((cfg0.win 0).blk t).view.emb (ix2 (⟨(j 0).val, idx2_lt0 j⟩ : Fin 1000) k)) = _
    refine congrArg (V c main_v26) (funext fun a => Fin.ext ?_)
    match a with
    | ⟨0, _⟩ =>
      show win0_0.index t (0 : Fin 2) * 1000 + 1 * (j 0).val = win0_6.index t (0 : Fin 2) * 1000 + 1 * (j 0).val
      omega
    | ⟨1, _⟩ =>
      show win0_0.index t (1 : Fin 2) * 300 + 1 * k.val = k.val
      omega
  · show V c main_v27 (((cfg0.win 1).blk t).view.emb (ix2 (⟨(j 0).val, idx2_lt0 j⟩ : Fin 1000) k)) = _
    refine congrArg (V c main_v27) (funext fun a => Fin.ext ?_)
    match a with
    | ⟨0, _⟩ =>
      show win0_1.index t (0 : Fin 2) * 1000 + 1 * (j 0).val = win0_6.index t (0 : Fin 2) * 1000 + 1 * (j 0).val
      omega
    | ⟨1, _⟩ =>
      show win0_1.index t (1 : Fin 2) * 1280 + 1 * k.val = k.val
      omega
  · funext y
    show V c main_v19 (((cfg0.win 2).blk t).view.emb y) = V c main_v19 y
    refine congrArg (V c main_v19) (funext fun a => Fin.ext ?_)
    match a with
    | ⟨0, _⟩ =>
      show win0_2.index t (0 : Fin 2) * 300 + 1 * (y 0).val = (y 0).val
      omega
    | ⟨1, _⟩ =>
      show win0_2.index t (1 : Fin 2) * 512 + 1 * (y 1).val = (y 1).val
      omega
  · funext y
    show V c main_v21 (((cfg0.win 3).blk t).view.emb y) = V c main_v21 y
    refine congrArg (V c main_v21) (funext fun a => Fin.ext ?_)
    match a with
    | ⟨0, _⟩ =>
      show win0_3.index t (0 : Fin 2) * 1280 + 1 * (y 0).val = (y 0).val
      omega
    | ⟨1, _⟩ =>
      show win0_3.index t (1 : Fin 2) * 512 + 1 * (y 1).val = (y 1).val
      omega
  · funext y
    show V c main_v22 (((cfg0.win 4).blk t).view.emb y) = V c main_v22 y
    refine congrArg (V c main_v22) (funext fun a => Fin.ext ?_)
    match a with
    | ⟨0, _⟩ =>
      show win0_4.index t (0 : Fin 2) * 1 + 1 * (y 0).val = (y 0).val
      omega
    | ⟨1, _⟩ =>
      show win0_4.index t (1 : Fin 2) * 512 + 1 * (y 1).val = (y 1).val
      omega
  · funext y
    show V c main_v25 (((cfg0.win 5).blk t).view.emb y) = V c main_v25 y
    refine congrArg (V c main_v25) (funext fun a => Fin.ext ?_)
    match a with
    | ⟨0, _⟩ =>
      show win0_5.index t (0 : Fin 2) * 512 + 1 * (y 0).val = (y 0).val
      omega
    | ⟨1, _⟩ =>
      show win0_5.index t (1 : Fin 2) * 5 + 1 * (y 1).val = (y 1).val
      omega
  · show (j 1).val = win0_6.index t (1 : Fin 2) * 5 + 1 * (j 1).val
    omega

/-- An index of the output array is in point t's block iff each coordinate is in the block's range on its axis. -/
theorem prot_mem_blk (t : Fin cfg0.N) (i : S8000x5.Idx) :
    i ∈ ((cfg0.win 6).blk t).view.set ↔ ∀ a : Fin 2, win0_6.index t a * S1000x5.size a ≤ (i a).val
      ∧ (i a).val < win0_6.index t a * S1000x5.size a + S1000x5.size a := by
  show i ∈ ((View.whole main_v28).slice (win0_6.rect t)).set ↔ _
  rw [View.set_slice_whole, Rect.mem_set_unit]
  exact Iff.rfl

/-- Row r is in the block of point r / 1000, and that point writes back. -/
theorem prot_cover (i : S8000x5.Idx) :
    ∃ t : Fin cfg0.N, (cfg0.win 6).flush t = true ∧ i ∈ ((cfg0.win 6).blk t).view.set := by
  have hi0 : (i 0).val < 8000 := idx2_lt0 i
  have hi1 : (i 1).val < 5 := idx2_lt1 i
  obtain ⟨t, ht⟩ := prot_onto ⟨(i 0).val / 1000, by omega⟩
  have q0 : win0_6.index t (0 : Fin 2) = (i 0).val / 1000 := congrFun ht 0
  have q1 : win0_6.index t (1 : Fin 2) = 0 := congrFun ht 1
  refine ⟨t, flush0_6 t, ?_⟩
  rw [prot_mem_blk]
  intro a
  match a with
  | ⟨0, _⟩ =>
    show win0_6.index t (0 : Fin 2) * 1000 ≤ (i 0).val ∧ (i 0).val < win0_6.index t (0 : Fin 2) * 1000 + 1000
    omega
  | ⟨1, _⟩ =>
    show win0_6.index t (1 : Fin 2) * 5 ≤ (i 1).val ∧ (i 1).val < win0_6.index t (1 : Fin 2) * 5 + 5
    omega

/-- THE PROTEIN REGION'S OUTPUT ARRAY after its run. -/
theorem prot_final (c : Dev nD) : (dat0 V c).arrAt 6 cfg0.N
    = protArr (V c main_v26) (V c main_v27) (V c main_v19) (V c main_v21) (V c main_v22) (V c main_v25) :=
  (dat0 V c).arrAt_eq_of_cover 6 _ (fun t _ => prot_flushed V c t) prot_cover

end Cert.KernelIdeal.Blocks

end
-- ==== Proof.Stages.lean ====
/-
  The host operations around the two kernel regions, as functions of the argument arrays.

  Before the protein region the host computes the neighbourhood mean (gather the source rows of the message edges,
  add them up per destination, divide by the clipped in-degree) and lays the weights out (transposes, one slice of the
  classifier's weight, one reshape of the bias).  Between the regions it lays out the drug part of the classifier's
  weight.  After the drug region it takes, for each labelled edge, the drug's row of one region's output and the
  protein's row of the other's, adds them, and adds the classifier's bias along the rows.  Each buffer a region
  reads, and the result buffer, is read here as the composition of the operations that wrote it, down to the
  launch contents of the arguments: no host operation and no region writes an argument.
-/
import proofs.«158668_j33303176413371_2_alg».proof.Proof.Gen.KernelIdeal.Frame
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]

/-! ## The composed operations -/

/-- Per destination, the sum of the source rows of the message edges that arrive there. -/
def aggK (x0 : (⟨S20000x300, .f32⟩ : BufTy).Contents (Elt F)) (x2 x3 : (⟨S500000, .i32⟩ : BufTy).Contents (Elt F)) :
    (⟨S8000x300, .f32⟩ : BufTy).Contents (Elt F) :=
  Host.scatterAdd scatter_S8000x300_S500000x1_S500000x300_1_0_0_1 (broadcastInDim S8000x300 ![] bcast_S_S8000x300 (constant S_ .f32 0x00000000#32)) (broadcastInDim S500000x1 ![0] bcast_S500000_S500000x1_0 (x3)) (Host.gather gather_S20000x300_S500000x1_S500000x300_1_0_n_n_0_1_1300 (x0) (broadcastInDim S500000x1 ![0] bcast_S500000_S500000x1_0 (select (cmpi .slt (x2) (broadcastInDim S500000 ![] bcast_S_S500000 (constantI S_ 32 0#32))) (addi (x2) (broadcastInDim S500000 ![] bcast_S_S500000 (constantI S_ 32 20000#32))) (x2))))

/-- Per destination, the number of message edges that arrive there. -/
def cntK (x3 : (⟨S500000, .i32⟩ : BufTy).Contents (Elt F)) : (⟨S8000, .f32⟩ : BufTy).Contents (Elt F) :=
  Host.scatterAdd scatter_S8000_S500000x1_S500000_n_0_0_1 (broadcastInDim S8000 ![] bcast_S_S8000 (constant S_ .f32 0x00000000#32)) (broadcastInDim S500000x1 ![0] bcast_S500000_S500000x1_0 (x3)) (broadcastInDim S500000 ![] bcast_S_S500000 (constant S_ .f32 0x3F800000#32))

/-- The neighbourhood mean: the sum over the count, the count clipped below at one. -/
def meanK (x0 : (⟨S20000x300, .f32⟩ : BufTy).Contents (Elt F)) (x2 x3 : (⟨S500000, .i32⟩ : BufTy).Contents (Elt F)) :
    (⟨S8000x300, .f32⟩ : BufTy).Contents (Elt F) :=
  Host.divf (aggK x0 x2 x3) (broadcastInDim S8000x300 ![0, 1] bcast_S8000x1_S8000x300_0_1 (broadcastInDim S8000x1 ![0] bcast_S8000_S8000x1_0 (maximumf (broadcastInDim S8000 ![] bcast_S_S8000 (id (constant S_ .f32 0x3F800000#32))) (cntK x3))))

/-- The drug endpoints of the labelled edges as an index column, a negative index counted from the end. -/
def idxColS (x4 : (⟨S200000, .i32⟩ : BufTy).Contents (Elt F)) : (⟨S200000x1, .i32⟩ : BufTy).Contents (Elt F) :=
  broadcastInDim S200000x1 ![0] bcast_S200000_S200000x1_0 (select (cmpi .slt (x4) (broadcastInDim S200000 ![] bcast_S_S200000 (constantI S_ 32 0#32))) (addi (x4) (broadcastInDim S200000 ![] bcast_S_S200000 (constantI S_ 32 20000#32))) (x4))

/-- The protein endpoints of the labelled edges as an index column, a negative index counted from the end. -/
def idxColD (x5 : (⟨S200000, .i32⟩ : BufTy).Contents (Elt F)) : (⟨S200000x1, .i32⟩ : BufTy).Contents (Elt F) :=
  broadcastInDim S200000x1 ![0] bcast_S200000_S200000x1_0 (select (cmpi .slt (x5) (broadcastInDim S200000 ![] bcast_S_S200000 (constantI S_ 32 0#32))) (addi (x5) (broadcastInDim S200000 ![] bcast_S_S200000 (constantI S_ 32 8000#32))) (x5))

/-- The last stretch: a row of each region's output per labelled edge, added, plus the classifier's bias. -/
def tailK (dl : (⟨S20000x5, .f32⟩ : BufTy).Contents (Elt F)) (pl : (⟨S8000x5, .f32⟩ : BufTy).Contents (Elt F))
    (x4 x5 : (⟨S200000, .i32⟩ : BufTy).Contents (Elt F)) (x10 : (⟨S5, .f32⟩ : BufTy).Contents (Elt F)) :
    (⟨S200000x5, .f32⟩ : BufTy).Contents (Elt F) :=
  addf (addf (Host.gather gather_S20000x5_S200000x1_S200000x5_1_0_n_n_0_1_15 dl (idxColS x4))
      (Host.gather gather_S8000x5_S200000x1_S200000x5_1_0_n_n_0_1_15 pl (idxColD x5)))
    (broadcastInDim S200000x5 ![0, 1] bcast_S1x5_S200000x5_0_1 (shapeCast S1x5 x10 shapeCasts_S5_S1x5))

/-! ## Each stretch of host operations, from an arbitrary valuation of the buffers at its entry -/

section Stretches

variable (Wb : Valuation τ sig (Elt F))

set_option maxHeartbeats 1000000 in
theorem first_v9 : StableHlo.after hostOps0 Wb (Proc.devRef .tc main_v9)
    = aggK (Wb (Proc.devRef .tc main_arg0)) (Wb (Proc.devRef .tc main_arg2)) (Wb (Proc.devRef .tc main_arg3)) := by
  simp only [hostOps0]
  after_results_simp
  rfl

set_option maxHeartbeats 1000000 in
theorem first_v13 : StableHlo.after hostOps0 Wb (Proc.devRef .tc main_v13) = cntK (Wb (Proc.devRef .tc main_arg3)) := by
  simp only [hostOps0]
  after_results_simp
  rfl

set_option maxHeartbeats 1000000 in
theorem first_cst3 : StableHlo.after hostOps0 Wb (Proc.devRef .tc main_cst_3) = constant S_ .f32 0x3F800000#32 := by
  simp only [hostOps0]
  after_results_simp

theorem clip_v14 : StableHlo.after hostOps0_1 Wb (Proc.devRef .tc main_v14)
    = maximumf (broadcastInDim S8000 ![] bcast_S_S8000 (id (Wb (Proc.devRef .tc main_cst_3)))) (Wb (Proc.devRef .tc main_v13)) := by
  simp only [hostOps0_1]
  after_results
  rfl

theorem clip_v9 : StableHlo.after hostOps0_1 Wb (Proc.devRef .tc main_v9) = Wb (Proc.devRef .tc main_v9) := by
  simp only [hostOps0_1]
  after_results

theorem layout_v26 : StableHlo.after hostOps0_2 Wb (Proc.devRef .tc main_v26)
    = truncf .bf16 (Host.divf (Wb (Proc.devRef .tc main_v9)) (broadcastInDim S8000x300 ![0, 1] bcast_S8000x1_S8000x300_0_1 (broadcastInDim S8000x1 ![0] bcast_S8000_S8000x1_0 (Wb (Proc.devRef .tc main_v14))))) bitsLt_bf16_f32 := by
  simp only [hostOps0_2]
  after_results

theorem layout_v27 : StableHlo.after hostOps0_2 Wb (Proc.devRef .tc main_v27)
    = truncf .bf16 (Wb (Proc.devRef .tc main_arg1)) bitsLt_bf16_f32 := by
  simp only [hostOps0_2]
  after_results

theorem layout_v19 : StableHlo.after hostOps0_2 Wb (Proc.devRef .tc main_v19)
    = truncf .bf16 (transpose S300x512 [1, 0] (Wb (Proc.devRef .tc main_arg6)) transposes_S512x300_S300x512_1_0) bitsLt_bf16_f32 := by
  simp only [hostOps0_2]
  after_results

theorem layout_v21 : StableHlo.after hostOps0_2 Wb (Proc.devRef .tc main_v21)
    = truncf .bf16 (transpose S1280x512 [1, 0] (Wb (Proc.devRef .tc main_arg8)) transposes_S512x1280_S1280x512_1_0) bitsLt_bf16_f32 := by
  simp only [hostOps0_2]
  after_results

theorem layout_v22 : StableHlo.after hostOps0_2 Wb (Proc.devRef .tc main_v22)
    = shapeCast S1x512 (Wb (Proc.devRef .tc main_arg7)) shapeCasts_S512_S1x512 := by
  simp only [hostOps0_2]
  after_results
  rfl

theorem layout_v25 : StableHlo.after hostOps0_2 Wb (Proc.devRef .tc main_v25)
    = truncf .bf16 (transpose S512x5 [1, 0] (extractStridedSlice S5x512 ![0, 300] (Wb (Proc.devRef .tc main_arg9)) slices_S5x812_S5x512_0_300) transposes_S5x512_S512x5_1_0) bitsLt_bf16_f32 := by
  simp only [hostOps0_2]
  after_results

theorem between_v32 : StableHlo.after hostOps1 Wb (Proc.devRef .tc main_v32)
    = truncf .bf16 (Wb (Proc.devRef .tc main_arg0)) bitsLt_bf16_f32 := by
  simp only [hostOps1]
  after_results

theorem between_v31 : StableHlo.after hostOps1 Wb (Proc.devRef .tc main_v31)
    = truncf .bf16 (transpose S300x5 [1, 0] (extractStridedSlice S5x300 ![0, 0] (Wb (Proc.devRef .tc main_arg9)) slices_S5x812_S5x300_0_0) transposes_S5x300_S300x5_1_0) bitsLt_bf16_f32 := by
  simp only [hostOps1]
  after_results

theorem between_arg4 : StableHlo.after hostOps1 Wb (Proc.devRef .tc main_arg4) = Wb (Proc.devRef .tc main_arg4) := by
  simp only [hostOps1]
  after_results
theorem between_arg5 : StableHlo.after hostOps1 Wb (Proc.devRef .tc main_arg5) = Wb (Proc.devRef .tc main_arg5) := by
  simp only [hostOps1]
  after_results
theorem between_arg10 : StableHlo.after hostOps1 Wb (Proc.devRef .tc main_arg10) = Wb (Proc.devRef .tc main_arg10) := by
  simp only [hostOps1]
  after_results
theorem between_v28 : StableHlo.after hostOps1 Wb (Proc.devRef .tc main_v28) = Wb (Proc.devRef .tc main_v28) := by
  simp only [hostOps1]
  after_results

set_option maxHeartbeats 1000000 in
theorem last_v51 : StableHlo.after hostOps2 Wb (Proc.devRef .tc main_v51)
    = tailK (Wb (Proc.devRef .tc main_v33)) (Wb (Proc.devRef .tc main_v28)) (Wb (Proc.devRef .tc main_arg4))
        (Wb (Proc.devRef .tc main_arg5)) (Wb (Proc.devRef .tc main_arg10)) := by
  simp only [hostOps2]
  after_results_simp
  rfl

end Stretches

variable (m : (ℓ : Loc nD τ sig) → Buf (Elt F) ℓ) (ρ : Dev nD → PrngReg) (c : Dev nD)

/-- Walk a buffer no operation before the first region writes back to the launch memory. -/
macro "walk_back" : tactic =>
  `(tactic| (dsimp only [W3, W2, W1, W0, hostOps0, hostOps0_1, hostOps0_2]; after_results))

/-! ## The arguments, before the first region -/

theorem W2_arg1 : W2 m ρ c (Proc.devRef .tc main_arg1) = m ((c : Thread nD τ).loc main_arg1) := by walk_back
theorem W2_arg6 : W2 m ρ c (Proc.devRef .tc main_arg6) = m ((c : Thread nD τ).loc main_arg6) := by walk_back
theorem W2_arg7 : W2 m ρ c (Proc.devRef .tc main_arg7) = m ((c : Thread nD τ).loc main_arg7) := by walk_back
theorem W2_arg8 : W2 m ρ c (Proc.devRef .tc main_arg8) = m ((c : Thread nD τ).loc main_arg8) := by walk_back
theorem W2_arg9 : W2 m ρ c (Proc.devRef .tc main_arg9) = m ((c : Thread nD τ).loc main_arg9) := by walk_back
theorem W3_arg0 : W3 m ρ c (Proc.devRef .tc main_arg0) = m ((c : Thread nD τ).loc main_arg0) := by walk_back
theorem W3_arg4 : W3 m ρ c (Proc.devRef .tc main_arg4) = m ((c : Thread nD τ).loc main_arg4) := by walk_back
theorem W3_arg5 : W3 m ρ c (Proc.devRef .tc main_arg5) = m ((c : Thread nD τ).loc main_arg5) := by walk_back
theorem W3_arg9 : W3 m ρ c (Proc.devRef .tc main_arg9) = m ((c : Thread nD τ).loc main_arg9) := by walk_back
theorem W3_arg10 : W3 m ρ c (Proc.devRef .tc main_arg10) = m ((c : Thread nD τ).loc main_arg10) := by walk_back

/-! ## What the protein region finds in its six input arrays -/

/-- The sums over the message edges, as they stand when the first region is entered. -/
theorem W2_v9 : W2 m ρ c (Proc.devRef .tc main_v9)
    = aggK (m ((c : Thread nD τ).loc main_arg0)) (m ((c : Thread nD τ).loc main_arg2)) (m ((c : Thread nD τ).loc main_arg3)) :=
  (clip_v9 (W1 m ρ c)).trans (first_v9 (W0 m ρ c))

/-- The clipped in-degree. -/
theorem W2_v14 : W2 m ρ c (Proc.devRef .tc main_v14)
    = maximumf (broadcastInDim S8000 ![] bcast_S_S8000 (id (constant S_ .f32 0x3F800000#32))) (cntK (m ((c : Thread nD τ).loc main_arg3))) := by
  refine (clip_v14 (W1 m ρ c)).trans ?_
  have h1 : W1 m ρ c (Proc.devRef .tc main_cst_3) = constant S_ .f32 0x3F800000#32 := first_cst3 (W0 m ρ c)
  have h2 : W1 m ρ c (Proc.devRef .tc main_v13) = cntK (m ((c : Thread nD τ).loc main_arg3)) := first_v13 (W0 m ρ c)
  rw [h1, h2]

/-- The mean, narrowed to bf16. -/
theorem W3_v26 : W3 m ρ c (Proc.devRef .tc main_v26)
    = truncf .bf16 (meanK (m ((c : Thread nD τ).loc main_arg0)) (m ((c : Thread nD τ).loc main_arg2)) (m ((c : Thread nD τ).loc main_arg3))) bitsLt_bf16_f32 := by
  refine (layout_v26 (W2 m ρ c)).trans ?_
  rw [W2_v9 m ρ c, W2_v14 m ρ c]
  rfl

theorem W3_v27 : W3 m ρ c (Proc.devRef .tc main_v27) = truncf .bf16 (m ((c : Thread nD τ).loc main_arg1)) bitsLt_bf16_f32 := by
  refine (layout_v27 (W2 m ρ c)).trans ?_
  rw [W2_arg1 m ρ c]

theorem W3_v19 : W3 m ρ c (Proc.devRef .tc main_v19)
    = truncf .bf16 (transpose S300x512 [1, 0] (m ((c : Thread nD τ).loc main_arg6)) transposes_S512x300_S300x512_1_0) bitsLt_bf16_f32 := by
  refine (layout_v19 (W2 m ρ c)).trans ?_
  rw [W2_arg6 m ρ c]

theorem W3_v21 : W3 m ρ c (Proc.devRef .tc main_v21)
    = truncf .bf16 (transpose S1280x512 [1, 0] (m ((c : Thread nD τ).loc main_arg8)) transposes_S512x1280_S1280x512_1_0) bitsLt_bf16_f32 := by
  refine (layout_v21 (W2 m ρ c)).trans ?_
  rw [W2_arg8 m ρ c]

theorem W3_v22 : W3 m ρ c (Proc.devRef .tc main_v22)
    = shapeCast S1x512 (m ((c : Thread nD τ).loc main_arg7)) shapeCasts_S512_S1x512 := by
  refine (layout_v22 (W2 m ρ c)).trans ?_
  rw [W2_arg7 m ρ c]

theorem W3_v25 : W3 m ρ c (Proc.devRef .tc main_v25)
    = truncf .bf16 (transpose S512x5 [1, 0] (extractStridedSlice S5x512 ![0, 300] (m ((c : Thread nD τ).loc main_arg9)) slices_S5x812_S5x512_0_300) transposes_S5x512_S512x5_1_0) bitsLt_bf16_f32 := by
  refine (layout_v25 (W2 m ρ c)).trans ?_
  rw [W2_arg9 m ρ c]

/-! ## What the drug region finds in its two input arrays -/

theorem W4_arg0 : W4 m ρ c (Proc.devRef .tc main_arg0) = m ((c : Thread nD τ).loc main_arg0) :=
  (W4_of_ne m ρ c main_arg0 (by decide)).trans (W3_arg0 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)

theorem W5_v32 : W5 m ρ c (Proc.devRef .tc main_v32) = truncf .bf16 (m ((c : Thread nD τ).loc main_arg0)) bitsLt_bf16_f32 := by
  refine (between_v32 (W4 m ρ c)).trans ?_
  rw [W4_arg0 m ρ c]

theorem W5_v31 : W5 m ρ c (Proc.devRef .tc main_v31)
    = truncf .bf16 (transpose S300x5 [1, 0] (extractStridedSlice S5x300 ![0, 0] (m ((c : Thread nD τ).loc main_arg9)) slices_S5x812_S5x300_0_0) transposes_S5x300_S300x5_1_0) bitsLt_bf16_f32 := by
  refine (between_v31 (W4 m ρ c)).trans ?_
  rw [W4_arg9 m ρ c]

/-! ## After the drug region: the two outputs and the arguments the last stretch reads -/

theorem W6_arg4 : W6 m ρ c (Proc.devRef .tc main_arg4) = m ((c : Thread nD τ).loc main_arg4) :=
  (W6_of_ne m ρ c main_arg4 (by decide)).trans ((between_arg4 (W4 m ρ c)).trans (W4_arg4 m ρ c))
theorem W6_arg5 : W6 m ρ c (Proc.devRef .tc main_arg5) = m ((c : Thread nD τ).loc main_arg5) :=
  (W6_of_ne m ρ c main_arg5 (by decide)).trans ((between_arg5 (W4 m ρ c)).trans (W4_arg5 m ρ c))
theorem W6_arg10 : W6 m ρ c (Proc.devRef .tc main_arg10) = m ((c : Thread nD τ).loc main_arg10) :=
  (W6_of_ne m ρ c main_arg10 (by decide)).trans ((between_arg10 (W4 m ρ c)).trans (W4_arg10 m ρ c))

/-- The protein region's output array is still what that region left. -/
theorem W6_v28 : W6 m ρ c (Proc.devRef .tc main_v28) = (dat0 (V3 m ρ) c).arrAt 6 cfg0.N :=
  (W6_of_ne m ρ c main_v28 (by decide)).trans ((between_v28 (W4 m ρ c)).trans (W4_arr m ρ c 6))

/-- The drug region's output array is what that region left. -/
theorem W6_v33 : W6 m ρ c (Proc.devRef .tc main_v33) = (dat1 (V5 m ρ) c).arrAt 2 cfg1.N :=
  W6_arr m ρ c 2

/-! ## The result buffer -/

theorem W7_v51 : W7 m ρ c (Proc.devRef .tc main_v51)
    = tailK ((dat1 (V5 m ρ) c).arrAt 2 cfg1.N) ((dat0 (V3 m ρ) c).arrAt 6 cfg0.N) (m ((c : Thread nD τ).loc main_arg4))
        (m ((c : Thread nD τ).loc main_arg5)) (m ((c : Thread nD τ).loc main_arg10)) := by
  refine (last_v51 (W6 m ρ c)).trans ?_
  rw [W6_v33 m ρ c, W6_v28 m ρ c, W6_arg4 m ρ c, W6_arg5 m ρ c, W6_arg10 m ρ c]

end Cert.KernelIdeal.Stages

end
-- ==== Proof.LibGatherRows.lean ====
/-
  Taking rows of a matrix by an integer index column, read at an entry, for any sizes and any element type.

  The host's gather of an  N x C  array at start indices of shape  E x 1  (each start index one row number; the slice a
  whole row: offset axis 1, collapsed axis 0, slice sizes 1 x C) has at entry (e, c) the array's entry (r, c), where
  r is the start index  idx[e, 0]  read as a signed integer and clamped into [0, N - 1].  The row r depends on N and on
  the index column only, not on the row length C: two arrays with the same number of rows, gathered by the same
  index column, are read at the same rows.
-/
import Idealize.ShloMosaic.Lib.Pipeline.Value
import Idealize.ShloMosaic.Lib.ValueIdx

namespace Cert.LibGatherRows

open Idealize.ShloMosaic Idealize.ShloMosaic.ValueIdx

variable {α : Type}

/-- The dimension numbers of a row gather: operand  N x C, start indices  E x 1, result  E x C. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that entry e of the index column selects among N rows: the signed value, clamped into [0, N - 1]. -/
def rowOf (N : Nat) {E w : Nat} (idx : IVec ⟨2, ![E, 1]⟩ w) (e : Fin E) : Nat :=
  min (idx (ix2 e (⟨0, Nat.one_pos⟩ : Fin 1))).toInt.toNat (N - 1)

theorem rowOf_lt {N : Nat} (hN : 0 < N) {E w : Nat} (idx : IVec ⟨2, ![E, 1]⟩ w) (e : Fin E) : rowOf N idx e < N := by
  unfold rowOf; omega

/-- THE ROW GATHER READ AT (e, c): the operand's entry (rowOf N idx e, c). -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) = x (ix2 (⟨rowOf N idx e, rowOf_lt hN idx e⟩ : Fin N) c) := by
  unfold Host.gather
  congr 1
  funext a
  refine Fin.ext ?_
  match a with
  | ⟨0, _⟩ =>
    show (rowDims N E C wf).start (ix2 e c) idx 0 + (rowDims N E C wf).batchCoord (ix2 e c) 0
      + (rowDims N E C wf).offCoord (ix2 e c) 0 = rowOf N idx e
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = ix2 e (⟨0, Nat.one_pos⟩ : Fin 1) := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1
      + (rowDims N E C wf).offCoord (ix2 e c) 1 = c.val
    rw [GatherDims.batchCoord_eq_zero _ _ _ List.not_mem_nil]
    unfold GatherDims.start
    rw [dif_neg (show ¬ (1 : Fin 2) ∈ (rowDims N E C wf).startIndexMap from fun h =>
      absurd (show (1 : ℕ) = 0 from congrArg Fin.val (List.mem_singleton.mp h)) Nat.one_ne_zero)]
    simp only [Nat.add_zero, Nat.zero_add]
    rfl

end Cert.LibGatherRows
-- ==== Proof.Spec.lean ====
/-
  The edge classifier on a bipartite graph, as formulas over the extended reals.

  Each labelled edge l joins a drug row s(l) and a protein row d(l).  The protein's embedding is the SAGE update
      emb[p, h] = sum_k mean[p, k] * W_l[h, k]  +  b_l[h]  +  sum_j x_prot[p, j] * W_r[h, j],
  and the edge's logit for class o is the linear layer over the joined row  (x_drug[s(l), :] ‖ emb[d(l), :]):
      out[l, o] = sum_{c < 812} joined[l, c] * W_lin[o, c]  +  b_lin[o].
  Because the joined row is the drug row followed by the embedding row, the sum over its 812 columns is the sum over
  the first 300 (a logit of the drug alone) plus the sum over the last 512 (a logit of the protein alone): no product
  is redistributed, only the range of one sum is cut in two, so the identity holds for every extended real, the
  infinities included.  The bias b_l may be added before or after the second product: addition of extended reals is
  commutative and associative.
-/
import Idealize.ShloMosaic.PureOps.Ideal.Laws
import Idealize.ShloMosaic.Lib.ValueIdx

noncomputable section

namespace Cert.EdgeLogit

open Idealize.ShloMosaic Idealize.ShloMosaic.ValueIdx

/-- An a x b array of extended reals. -/
abbrev Mat (a b : Nat) := (⟨2, ![a, b]⟩ : Shape).Idx → EReal
/-- A length-a vector of extended reals. -/
abbrev Vct (a : Nat) := (⟨1, ![a]⟩ : Shape).Idx → EReal

/-- Column 300 + h of the classifier's weight: the part that multiplies the protein embedding. -/
abbrev colP (h : Fin 512) : Fin 812 := ⟨300 + h.val, by have := h.isLt; omega⟩
/-- Column k of the classifier's weight, k < 300: the part that multiplies the drug features. -/
abbrev colD (k : Fin 300) : Fin 812 := ⟨k.val, by have := k.isLt; omega⟩

/-- The SAGE update at protein p, hidden unit h, the bias added last. -/
def embBiasLast (mean : Mat 8000 300) (xp : Mat 8000 1280) (Wl : Mat 512 300) (bl : Vct 512) (Wr : Mat 512 1280)
    (p : Fin 8000) (h : Fin 512) : EReal :=
  ((∑ k : Fin 300, mean (ix2 p k) * Wl (ix2 h k)) + ∑ j : Fin 1280, xp (ix2 p j) * Wr (ix2 h j)) + bl (ix1 h)

/-- The same with the bias added between the two products. -/
def embBiasMid (mean : Mat 8000 300) (xp : Mat 8000 1280) (Wl : Mat 512 300) (bl : Vct 512) (Wr : Mat 512 1280)
    (p : Fin 8000) (h : Fin 512) : EReal :=
  ((∑ k : Fin 300, mean (ix2 p k) * Wl (ix2 h k)) + bl (ix1 h)) + ∑ j : Fin 1280, xp (ix2 p j) * Wr (ix2 h j)

theorem embBiasMid_eq_last (mean : Mat 8000 300) (xp : Mat 8000 1280) (Wl : Mat 512 300) (bl : Vct 512)
    (Wr : Mat 512 1280) (p : Fin 8000) (h : Fin 512) :
    embBiasMid mean xp Wl bl Wr p h = embBiasLast mean xp Wl bl Wr p h :=
  add_right_comm _ _ _

/-- The protein's own logit: its embedding against the last 512 columns of the classifier's weight. -/
def protLogit (emb : Fin 8000 → Fin 512 → EReal) (Wlin : Mat 5 812) (p : Fin 8000) (o : Fin 5) : EReal :=
  ∑ h : Fin 512, emb p h * Wlin (ix2 o (colP h))

/-- The drug's own logit: its features against the first 300 columns of the classifier's weight. -/
def drugLogit (xd : Mat 20000 300) (Wlin : Mat 5 812) (n : Fin 20000) (o : Fin 5) : EReal :=
  ∑ k : Fin 300, xd (ix2 n k) * Wlin (ix2 o (colD k))

/-- The joined row of an edge with drug row s and protein row d: the drug's 300 features, then the embedding's 512. -/
def joined (xd : Mat 20000 300) (emb : Fin 8000 → Fin 512 → EReal) (s : Fin 20000) (d : Fin 8000) (c : Fin 812) : EReal :=
  if hc : c.val < 300 then xd (ix2 s (⟨c.val, hc⟩ : Fin 300))
  else emb d (⟨c.val - 300, by have := c.isLt; omega⟩ : Fin 512)

/-- THE LAW: the linear layer over the joined row is the drug's logit plus the protein's logit. -/
theorem joined_sum (xd : Mat 20000 300) (emb : Fin 8000 → Fin 512 → EReal) (Wlin : Mat 5 812)
    (s : Fin 20000) (d : Fin 8000) (o : Fin 5) :
    (∑ c : Fin 812, joined xd emb s d c * Wlin (ix2 o c)) = drugLogit xd Wlin s o + protLogit emb Wlin d o := by
  have h := Fin.sum_univ_add (M := EReal) (a := 300) (b := 512)
    (fun c : Fin (300 + 512) => joined xd emb s d c * Wlin (ix2 o c))
  refine h.trans ?_
  unfold drugLogit protLogit
  refine congrArg₂ (· + ·) (Finset.sum_congr rfl fun k _ => ?_) (Finset.sum_congr rfl fun hh _ => ?_)
  · have e : joined xd emb s d (Fin.castAdd 512 k) = xd (ix2 s k) := by
      unfold joined
      rw [dif_pos (show (Fin.castAdd 512 k).val < 300 from k.isLt)]
      rfl
    rw [e]; rfl
  · have e : joined xd emb s d (Fin.natAdd 300 hh) = emb d hh := by
      unfold joined
      rw [dif_neg (show ¬ (Fin.natAdd 300 hh).val < 300 from by simp [Fin.natAdd])]
      congr 1
      exact Fin.ext (by simp [Fin.natAdd])
    rw [e]; rfl

end Cert.EdgeLogit

end
-- ==== Proof.KernelAt.lean ====
/-
  The kernel program's result, read at one entry, at the ideal values.

  Entry (l, o) of the result is
      (drug logit of row s(l), class o  +  protein logit of row d(l), class o)  +  b_lin[o],
  where the drug logit is the drug's features against the first 300 columns of the classifier's weight, the protein
  logit is the protein's SAGE embedding (bias added last) against the last 512 columns, and s(l), d(l) are the rows
  the two row gathers select.  The narrowings to bf16 are the identity on the extended reals; a transposed weight read
  at (k, h) is the weight at (h, k); a slice of the classifier's weight from column 300 read at column h is the weight
  at column 300 + h.
-/
import proofs.«158668_j33303176413371_2_alg».proof.Proof.Blocks
import proofs.«158668_j33303176413371_2_alg».proof.Proof.Stages
import proofs.«158668_j33303176413371_2_alg».proof.Proof.LibGatherRows
import proofs.«158668_j33303176413371_2_alg».proof.Proof.Spec
import Idealize.ShloMosaic.Lib.ValueLayout

set_option maxRecDepth 16384

noncomputable section

namespace Cert.KernelIdeal.KernelAt

open Cert.KernelIdeal Cert.KernelIdeal.Gen
open Idealize.ShloMosaic Idealize.ShloMosaic.TcCoe Idealize.ShloMosaic.ValueIdx Idealize.SL.Sem
open Cert.EdgeLogit Cert.LibGatherRows Cert.KernelIdeal.Blocks Cert.KernelIdeal.Stages

/-! ## The two regions' arrays at an entry, over plain arrays -/

/-- The drug region's array at (r, o): the drug's logit. -/
theorem drug_entry (X0 : (⟨S20000x300, .f32⟩ : BufTy).Contents (Elt Ideal)) (W9 : (⟨S5x812, .f32⟩ : BufTy).Contents (Elt Ideal))
    (r : Fin 20000) (o : Fin 5) :
    drugArr (truncf (F := Ideal) .bf16 X0 bitsLt_bf16_f32)
      (truncf (F := Ideal) .bf16 (transpose S300x5 [1, 0] (extractStridedSlice S5x300 ![0, 0] W9 slices_S5x812_S5x300_0_0) transposes_S5x300_S300x5_1_0) bitsLt_bf16_f32)
      (ix2 r o) = drugLogit X0 W9 r o := by
  unfold drugArr drugLogit
  refine Finset.sum_congr rfl fun k _ => ?_
  refine congrArg₂ (· * ·) rfl ?_
  show transpose S300x5 [1, 0] (extractStridedSlice S5x300 ![0, 0] W9 slices_S5x812_S5x300_0_0) transposes_S5x300_S300x5_1_0 (ix2 k o)
    = W9 (ix2 o (colD k))
  refine (transpose_ix2_apply _ transposes_S5x300_S300x5_1_0 k o).trans ?_
  exact slice2_axis1_apply 0 W9 slices_S5x812_S5x300_0_0 o k (colD k) (Nat.zero_add _).symm

/-- The protein region's array at (r, o): the protein's logit, the embedding's bias added last. -/
theorem prot_entry (Mn : (⟨S8000x300, .f32⟩ : BufTy).Contents (Elt Ideal)) (X1 : (⟨S8000x1280, .f32⟩ : BufTy).Contents (Elt Ideal))
    (W6 : (⟨S512x300, .f32⟩ : BufTy).Contents (Elt Ideal)) (B7 : (⟨S512, .f32⟩ : BufTy).Contents (Elt Ideal))
    (W8 : (⟨S512x1280, .f32⟩ : BufTy).Contents (Elt Ideal)) (W9 : (⟨S5x812, .f32⟩ : BufTy).Contents (Elt Ideal))
    (r : Fin 8000) (o : Fin 5) :
    protArr (truncf (F := Ideal) .bf16 Mn bitsLt_bf16_f32) (truncf (F := Ideal) .bf16 X1 bitsLt_bf16_f32)
      (truncf (F := Ideal) .bf16 (transpose S300x512 [1, 0] W6 transposes_S512x300_S300x512_1_0) bitsLt_bf16_f32)
      (truncf (F := Ideal) .bf16 (transpose S1280x512 [1, 0] W8 transposes_S512x1280_S1280x512_1_0) bitsLt_bf16_f32)
      (shapeCast S1x512 B7 shapeCasts_S512_S1x512)
      (truncf (F := Ideal) .bf16 (transpose S512x5 [1, 0] (extractStridedSlice S5x512 ![0, 300] W9 slices_S5x812_S5x512_0_300) transposes_S5x512_S512x5_1_0) bitsLt_bf16_f32)
      (ix2 r o) = protLogit (embBiasLast Mn X1 W6 B7 W8) W9 r o := by
  unfold protArr protLogit embBiasLast
  refine Finset.sum_congr rfl fun h _ => ?_
  refine congrArg₂ (· * ·) (congrArg₂ (· + ·) (congrArg₂ (· + ·) (Finset.sum_congr rfl fun k _ => ?_) (Finset.sum_congr rfl fun j _ => ?_)) ?_) ?_
  · refine congrArg₂ (· * ·) rfl ?_
    show transpose S300x512 [1, 0] W6 transposes_S512x300_S300x512_1_0 (ix2 k h) = W6 (ix2 h k)
    exact transpose_ix2_apply _ transposes_S512x300_S300x512_1_0 k h
  · refine congrArg₂ (· * ·) rfl ?_
    show transpose S1280x512 [1, 0] W8 transposes_S512x1280_S1280x512_1_0 (ix2 j h) = W8 (ix2 h j)
    exact transpose_ix2_apply _ transposes_S512x1280_S1280x512_1_0 j h
  · exact shapeCast_a_1a_apply B7 shapeCasts_S512_S1x512 (0 : Fin 1) h
  · show transpose S512x5 [1, 0] (extractStridedSlice S5x512 ![0, 300] W9 slices_S5x812_S5x512_0_300) transposes_S5x512_S512x5_1_0 (ix2 h o)
      = W9 (ix2 o (colP h))
    refine (transpose_ix2_apply _ transposes_S5x512_S512x5_1_0 h o).trans ?_
    exact slice2_axis1_apply 300 W9 slices_S5x812_S5x512_0_300 o h (colP h) rfl

/-- The classifier's bias, reshaped to a row and repeated along the rows, at (l, o). -/
theorem bias_entry (B10 : (⟨S5, .f32⟩ : BufTy).Contents (Elt Ideal)) (l : Fin 200000) (o : Fin 5) :
    broadcastInDim S200000x5 ![0, 1] bcast_S1x5_S200000x5_0_1 (shapeCast S1x5 B10 shapeCasts_S5_S1x5) (ix2 l o) = B10 (ix1 o) := by
  refine (broadcastInDim_apply _ bcast_S1x5_S200000x5_0_1 (shapeCast S1x5 B10 shapeCasts_S5_S1x5) (ix2 l o) (ix2 (0 : Fin 1) o)
    (fun a => match a with
      | ⟨0, _⟩ => by show 0 = if (1 : Nat) = 1 then 0 else l.val; rw [if_pos rfl]
      | ⟨1, _⟩ => by show o.val = if (5 : Nat) = 1 then 0 else o.val; rw [if_neg (by decide)])).trans ?_
  exact shapeCast_a_1a_apply B10 shapeCasts_S5_S1x5 (0 : Fin 1) o

/-! ## The run's result buffer -/

variable (m : (ℓ : Loc nD τ sig) → Buf (Elt Ideal) ℓ) (ρ : Dev nD → PrngReg) (c : Dev nD)

/-- The drug row of labelled edge l. -/
def rowS (x4 : (⟨S200000, .i32⟩ : BufTy).Contents (Elt Ideal)) (l : Fin 200000) : Fin 20000 :=
  ⟨rowOf 20000 (idxColS (F := Ideal) x4) l, rowOf_lt (by decide) _ l⟩
/-- The protein row of labelled edge l. -/
def rowD (x5 : (⟨S200000, .i32⟩ : BufTy).Contents (Elt Ideal)) (l : Fin 200000) : Fin 8000 :=
  ⟨rowOf 8000 (idxColD (F := Ideal) x5) l, rowOf_lt (by decide) _ l⟩

/-- The drug region's output array, of the arguments. -/
theorem drug_array : (dat1 (V5 m ρ) c).arrAt 2 cfg1.N
    = drugArr (truncf (F := Ideal) .bf16 (m ((c : Thread nD τ).loc main_arg0)) bitsLt_bf16_f32)
        (truncf (F := Ideal) .bf16 (transpose S300x5 [1, 0] (extractStridedSlice S5x300 ![0, 0] (m ((c : Thread nD τ).loc main_arg9)) slices_S5x812_S5x300_0_0) transposes_S5x300_S300x5_1_0) bitsLt_bf16_f32) := by
  refine (drug_final (V5 m ρ) c).trans ?_
  have e0 : V5 m ρ c main_v32 = _ := W5_v32 m ρ c
  have e1 : V5 m ρ c main_v31 = _ := W5_v31 m ρ c
  rw [e0, e1]

/-- The protein region's output array, of the arguments. -/
theorem prot_array : (dat0 (V3 m ρ) c).arrAt 6 cfg0.N
    = protArr (truncf (F := Ideal) .bf16 (meanK (m ((c : Thread nD τ).loc main_arg0)) (m ((c : Thread nD τ).loc main_arg2)) (m ((c : Thread nD τ).loc main_arg3))) bitsLt_bf16_f32)
        (truncf (F := Ideal) .bf16 (m ((c : Thread nD τ).loc main_arg1)) bitsLt_bf16_f32)
        (truncf (F := Ideal) .bf16 (transpose S300x512 [1, 0] (m ((c : Thread nD τ).loc main_arg6)) transposes_S512x300_S300x512_1_0) bitsLt_bf16_f32)
        (truncf (F := Ideal) .bf16 (transpose S1280x512 [1, 0] (m ((c : Thread nD τ).loc main_arg8)) transposes_S512x1280_S1280x512_1_0) bitsLt_bf16_f32)
        (shapeCast S1x512 (m ((c : Thread nD τ).loc main_arg7)) shapeCasts_S512_S1x512)
        (truncf (F := Ideal) .bf16 (transpose S512x5 [1, 0] (extractStridedSlice S5x512 ![0, 300] (m ((c : Thread nD τ).loc main_arg9)) slices_S5x812_S5x512_0_300) transposes_S5x512_S512x5_1_0) bitsLt_bf16_f32) := by
  refine (prot_final (V3 m ρ) c).trans ?_
  have e26 : V3 m ρ c main_v26 = _ := W3_v26 m ρ c
  have e27 : V3 m ρ c main_v27 = _ := W3_v27 m ρ c
  have e19 : V3 m ρ c main_v19 = _ := W3_v19 m ρ c
  have e21 : V3 m ρ c main_v21 = _ := W3_v21 m ρ c
  have e22 : V3 m ρ c main_v22 = _ := W3_v22 m ρ c
  have e25 : V3 m ρ c main_v25 = _ := W3_v25 m ρ c
  rw [e26, e27, e19, e21, e22, e25]

/-- THE KERNEL PROGRAM'S RESULT at (l, o). -/
theorem result_at (l : Fin 200000) (o : Fin 5) :
    W7 m ρ c (Proc.devRef .tc main_v51) (ix2 l o)
      = (drugLogit (m ((c : Thread nD τ).loc main_arg0)) (m ((c : Thread nD τ).loc main_arg9))
            (rowS (m ((c : Thread nD τ).loc main_arg4)) l) o
          + protLogit (embBiasLast (meanK (m ((c : Thread nD τ).loc main_arg0)) (m ((c : Thread nD τ).loc main_arg2)) (m ((c : Thread nD τ).loc main_arg3)))
              (m ((c : Thread nD τ).loc main_arg1)) (m ((c : Thread nD τ).loc main_arg6)) (m ((c : Thread nD τ).loc main_arg7))
              (m ((c : Thread nD τ).loc main_arg8))) (m ((c : Thread nD τ).loc main_arg9))
            (rowD (m ((c : Thread nD τ).loc main_arg5)) l) o)
        + m ((c : Thread nD τ).loc main_arg10) (ix1 o) := by
  rw [W7_v51 m ρ c, drug_array m ρ c, prot_array m ρ c]
  unfold tailK
  rw [addf_apply, addf_apply]
  refine congrArg₂ (· + ·) (congrArg₂ (· + ·) ?_ ?_) (bias_entry _ l o)
  · refine (gather_rows_apply (N := 20000) (E := 200000) (C := 5) (by decide)
      gather_S20000x5_S200000x1_S200000x5_1_0_n_n_0_1_15_wf _ (idxColS (F := Ideal) (m ((c : Thread nD τ).loc main_arg4))) l o).trans ?_
    exact drug_entry _ _ (rowS (m ((c : Thread nD τ).loc main_arg4)) l) o
  · refine (gather_rows_apply (N := 8000) (E := 200000) (C := 5) (by decide)
      gather_S8000x5_S200000x1_S200000x5_1_0_n_n_0_1_15_wf _ (idxColD (F := Ideal) (m ((c : Thread nD τ).loc main_arg5))) l o).trans ?_
    exact prot_entry _ _ _ _ _ _ (rowD (m ((c : Thread nD τ).loc main_arg5)) l) o

end Cert.KernelIdeal.KernelAt

end
-- ==== Proof.LibCat2.lean ====
/-
  Rank-2 arrays cut and joined, read at coordinates, for any sizes and any element type.

  * a slice of an n x w array from offsets (o0, o1), read at (p, q), is the array at (o0 + p, o1 + q);
  * two blocks stacked along the rows (n1 rows over n2 rows), read at (p, q), is the upper block at (p, q) when
    p < n1 and the lower block at (p - n1, q) otherwise;
  * two blocks set side by side along the columns (w1 columns, then w2), read at (p, q), is the left block at (p, q)
    when q < w1 and the right block at (p, q - w1) otherwise.
-/
import Idealize.ShloMosaic.Lib.Pipeline.Value
import Idealize.ShloMosaic.Lib.ValueIdx

namespace Cert.LibCat2

open Idealize.ShloMosaic Idealize.ShloMosaic.ValueIdx

variable {α : Type}

/-- A slice from offsets (o0, o1) read at (p, q) is the array at (o0 + p, o1 + q). -/
theorem slice_apply {n w n' w' : ℕ} (o0 o1 : ℕ) (x : (⟨2, ![n, w]⟩ : Shape).Idx → α)
    (h : (⟨2, ![n, w]⟩ : Shape).Slices ![o0, o1] (⟨2, ![n', w']⟩ : Shape)) (p : Fin n') (q : Fin w')
    (hp : o0 + p.val < n) (hq : o1 + q.val < w) :
    extractStridedSlice (⟨2, ![n', w']⟩ : Shape) ![o0, o1] x h (ix2 p q) = x (ix2 (⟨o0 + p.val, hp⟩ : Fin n) (⟨o1 + q.val, hq⟩ : Fin w)) :=
  extractStridedSlice_apply ![o0, o1] x h (ix2 p q) (ix2 (⟨o0 + p.val, hp⟩ : Fin n) (⟨o1 + q.val, hq⟩ : Fin w))
    (fun a => match a with
      | ⟨0, _⟩ => rfl
      | ⟨1, _⟩ => rfl)

/-- Two blocks stacked along the rows, read at (p, q): the upper block when p is one of its rows, else the lower block
    at row p - n1. -/
theorem rows_apply {n1 n2 n w : ℕ} (hn : n = n1 + n2) (x1 : (⟨2, ![n1, w]⟩ : Shape).Idx → α) (x2 : (⟨2, ![n2, w]⟩ : Shape).Idx → α)
    (h : Shape.Concatenates [(⟨2, ![n1, w]⟩ : Shape), (⟨2, ![n2, w]⟩ : Shape)] (⟨2, ![n, w]⟩ : Shape) (0 : Fin 2))
    (p : Fin n) (q : Fin w) :
    concatenate (⟨2, ![n, w]⟩ : Shape) (0 : Fin 2) [⟨(⟨2, ![n1, w]⟩ : Shape), x1⟩, ⟨(⟨2, ![n2, w]⟩ : Shape), x2⟩] h (ix2 p q)
      = if hp : p.val < n1 then x1 (ix2 (⟨p.val, hp⟩ : Fin n1) q)
        else x2 (ix2 (⟨p.val - n1, by have := p.isLt; omega⟩ : Fin n2) q) := by
  split
  · rename_i hp
    exact concatenate_pair_apply_left (0 : Fin 2) x1 x2 h (ix2 p q) rfl (ix2 (⟨p.val, hp⟩ : Fin n1) q)
      (fun b => match b with
        | ⟨0, _⟩ => rfl
        | ⟨1, _⟩ => rfl)
  · rename_i hp
    exact concatenate_pair_apply_right (0 : Fin 2) x1 x2 h (ix2 p q) rfl rfl
      (ix2 (⟨p.val - n1, by have := p.isLt; omega⟩ : Fin n2) q)
      (fun b hb => match b, hb with
        | ⟨0, _⟩, hb => absurd rfl hb
        | ⟨1, _⟩, _ => rfl)
      (by show (p.val - n1) + n1 = p.val; omega)

/-- Two blocks set side by side along the columns, read at (p, q): the left block when q is one of its columns, else
    the right block at column q - w1. -/
theorem cols_apply {w1 w2 n w : ℕ} (hw : w = w1 + w2) (x1 : (⟨2, ![n, w1]⟩ : Shape).Idx → α) (x2 : (⟨2, ![n, w2]⟩ : Shape).Idx → α)
    (h : Shape.Concatenates [(⟨2, ![n, w1]⟩ : Shape), (⟨2, ![n, w2]⟩ : Shape)] (⟨2, ![n, w]⟩ : Shape) (1 : Fin 2))
    (p : Fin n) (q : Fin w) :
    concatenate (⟨2, ![n, w]⟩ : Shape) (1 : Fin 2) [⟨(⟨2, ![n, w1]⟩ : Shape), x1⟩, ⟨(⟨2, ![n, w2]⟩ : Shape), x2⟩] h (ix2 p q)
      = if hq : q.val < w1 then x1 (ix2 p (⟨q.val, hq⟩ : Fin w1))
        else x2 (ix2 p (⟨q.val - w1, by have := q.isLt; omega⟩ : Fin w2)) := by
  split
  · rename_i hq
    exact concatenate_pair_apply_left (1 : Fin 2) x1 x2 h (ix2 p q) rfl (ix2 p (⟨q.val, hq⟩ : Fin w1))
      (fun b => match b with
        | ⟨0, _⟩ => rfl
        | ⟨1, _⟩ => rfl)
  · rename_i hq
    exact concatenate_pair_apply_right (1 : Fin 2) x1 x2 h (ix2 p q) rfl rfl
      (ix2 p (⟨q.val - w1, by have := q.isLt; omega⟩ : Fin w2))
      (fun b hb => match b, hb with
        | ⟨0, _⟩, _ => rfl
        | ⟨1, _⟩, hb => absurd rfl hb)
      (by show (q.val - w1) + w1 = q.val; omega)

end Cert.LibCat2
-- ==== Proof.RefAt.lean ====
/-
  The reference's result, read at one entry, at the ideal values.

  Entry (l, o) of the result is the linear layer over the joined row of labelled edge l:
      sum_{c < 812} joined[l, c] * W_lin[o, c] + b_lin[o],
  where the joined row is the drug's features (row s(l) of x_drug) followed by the protein's embedding (row d(l) of the
  SAGE update, the bias added between its two products), and s(l), d(l) are the rows the two row gathers select.
-/
import proofs.«158668_j33303176413371_2_alg».proof.Proof.Gen.ReferenceIdeal.Read
import proofs.«158668_j33303176413371_2_alg».proof.Proof.LibGatherRows
import proofs.«158668_j33303176413371_2_alg».proof.Proof.LibCat2
import proofs.«158668_j33303176413371_2_alg».proof.Proof.Spec

noncomputable section

namespace Cert.ReferenceIdeal.RefAt

open Cert.ReferenceIdeal Cert.ReferenceIdeal.Gen Cert.ReferenceIdeal.Read
open Idealize.ShloMosaic Idealize.ShloMosaic.ValueIdx Cert.EdgeLogit Cert.LibGatherRows

variable (x0 : (⟨S20000x300, .f32⟩ : BufTy).Contents (Elt Ideal)) (x1 : (⟨S8000x1280, .f32⟩ : BufTy).Contents (Elt Ideal))
  (x2 x3 : (⟨S500000, .i32⟩ : BufTy).Contents (Elt Ideal)) (x4 x5 : (⟨S200000, .i32⟩ : BufTy).Contents (Elt Ideal))
  (x6 : (⟨S512x300, .f32⟩ : BufTy).Contents (Elt Ideal)) (x7 : (⟨S512, .f32⟩ : BufTy).Contents (Elt Ideal))
  (x8 : (⟨S512x1280, .f32⟩ : BufTy).Contents (Elt Ideal)) (x9 : (⟨S5x812, .f32⟩ : BufTy).Contents (Elt Ideal))
  (x10 : (⟨S5, .f32⟩ : BufTy).Contents (Elt Ideal))

/-- The drug row of labelled edge l. -/
def rowS (l : Fin 200000) : Fin 20000 := ⟨rowOf 20000 (val_main_v31 (F := Ideal) x4) l, rowOf_lt (by decide) _ l⟩
/-- The protein row of labelled edge l. -/
def rowD (l : Fin 200000) : Fin 8000 := ⟨rowOf 8000 (val_main_v38 (F := Ideal) x5) l, rowOf_lt (by decide) _ l⟩

/-- The protein embedding at (p, h): the SAGE update, the bias between its two products. -/
theorem emb_at (p : Fin 8000) (h : Fin 512) :
    val_main_v25 (F := Ideal) x0 x1 x2 x3 x6 x7 x8 (ix2 p h)
      = embBiasMid (val_main_v17 (F := Ideal) x0 x2 x3) x1 x6 x7 x8 p h := by
  rw [val_main_v25_apply, val_main_v22_apply, val_main_v19_apply, val_main_v24_apply, val_main_v21_apply,
    val_main_v20_apply]
  unfold embBiasMid
  simp only [Ideal.addf_def]
  refine congrArg₂ (· + ·) (congrArg₂ (· + ·) (Finset.sum_congr rfl fun k _ => ?_) ?_) (Finset.sum_congr rfl fun k _ => ?_)
  · rw [val_main_v18_apply]
    exact congrArg₂ (· * ·)
      (congrArg (val_main_v17 (F := Ideal) x0 x2 x3) (funext fun a => Fin.ext (by
        match a with
        | ⟨0, _⟩ => rfl
        | ⟨1, _⟩ => rfl)))
      (congrArg x6 (funext fun a => Fin.ext (by
        match a with
        | ⟨0, _⟩ => rfl
        | ⟨1, _⟩ => rfl)))
  · exact congrArg x7 (funext fun a => Fin.ext (by
      match a with
      | ⟨0, _⟩ => rfl))
  · rw [val_main_v23_apply]
    exact congrArg₂ (· * ·)
      (congrArg x1 (funext fun a => Fin.ext (by
        match a with
        | ⟨0, _⟩ => rfl
        | ⟨1, _⟩ => rfl)))
      (congrArg x8 (funext fun a => Fin.ext (by
        match a with
        | ⟨0, _⟩ => rfl
        | ⟨1, _⟩ => rfl)))

/-- The joined row of labelled edge l at column cc. -/
theorem joined_at (l : Fin 200000) (cc : Fin 812) :
    val_main_v40 (F := Ideal) x0 x1 x2 x3 x4 x5 x6 x7 x8 (ix2 l cc)
      = joined x0 (embBiasMid (val_main_v17 (F := Ideal) x0 x2 x3) x1 x6 x7 x8) (rowS x4 l) (rowD x5 l) cc := by
  unfold val_main_v40
  refine (LibCat2.cols_apply (w1 := 300) (w2 := 512) rfl (val_main_v32 (F := Ideal) x0 x4)
    (val_main_v39 (F := Ideal) x0 x1 x2 x3 x5 x6 x7 x8) concatenates_S200000x300_S200000x512_S200000x812_d1 l cc).trans ?_
  unfold joined
  by_cases hc : cc.val < 300
  · rw [dif_pos hc, dif_pos hc]
    unfold val_main_v32
    exact gather_rows_apply (N := 20000) (E := 200000) (C := 300) (by decide)
      gather_S20000x300_S200000x1_S200000x300_1_0_n_n_0_1_1300_wf x0 (val_main_v31 (F := Ideal) x4) l ⟨cc.val, hc⟩
  · rw [dif_neg hc, dif_neg hc]
    unfold val_main_v39
    refine (gather_rows_apply (N := 8000) (E := 200000) (C := 512) (by decide)
      gather_S8000x512_S200000x1_S200000x512_1_0_n_n_0_1_1512_wf (val_main_v25 (F := Ideal) x0 x1 x2 x3 x6 x7 x8)
      (val_main_v38 (F := Ideal) x5) l ⟨cc.val - 300, by have := cc.isLt; omega⟩).trans ?_
    exact emb_at x0 x1 x2 x3 x6 x7 x8 (rowD x5 l) ⟨cc.val - 300, by have := cc.isLt; omega⟩

/-- THE REFERENCE'S RESULT at (l, o). -/
theorem result_at (l : Fin 200000) (o : Fin 5) :
    val_main_v45 (F := Ideal) x0 x1 x2 x3 x4 x5 x6 x7 x8 x9 x10 (ix2 l o)
      = (∑ cc : Fin 812, joined x0 (embBiasMid (val_main_v17 (F := Ideal) x0 x2 x3) x1 x6 x7 x8) (rowS x4 l) (rowD x5 l) cc
            * x9 (ix2 o cc)) + x10 (ix1 o) := by
  rw [val_main_v45_apply, val_main_v42_apply, val_main_v44_apply, val_main_v43_apply]
  simp only [Ideal.addf_def]
  refine congrArg₂ (· + ·) (Finset.sum_congr rfl fun k _ => ?_) ?_
  · rw [val_main_v41_apply]
    refine congrArg₂ (· * ·) ?_ ?_
    · refine (congrArg (val_main_v40 (F := Ideal) x0 x1 x2 x3 x4 x5 x6 x7 x8) (funext fun a => Fin.ext (by
        match a with
        | ⟨0, _⟩ => rfl
        | ⟨1, _⟩ => rfl) : lidx_main_v42 (ix2 l o) k = ix2 l k)).trans ?_
      exact joined_at x0 x1 x2 x3 x4 x5 x6 x7 x8 l k
    · exact congrArg x9 (funext fun a => Fin.ext (by
        match a with
        | ⟨0, _⟩ => rfl
        | ⟨1, _⟩ => rfl))
  · exact congrArg x10 (funext fun a => Fin.ext (by
      match a with
      | ⟨0, _⟩ => rfl))

end Cert.ReferenceIdeal.RefAt

end
-- ==== Proof.Bridge.lean ====
/-
  The two programs compute one function of the argument arrays.

  At entry (l, o) the kernel program's result is the drug's logit plus the protein's logit plus the bias, and the
  reference's is the linear layer over the joined row plus the bias.  The joined row's 812-term sum is the 300-term
  drug sum plus the 512-term protein sum; the protein's embedding is the same whether its bias is added between the two
  products or after them; the neighbourhood mean and the two index columns are the same compositions of the same host
  operations in both programs, so the selected rows s(l), d(l) agree.
-/
import proofs.«158668_j33303176413371_2_alg».proof.Proof.KernelAt
import proofs.«158668_j33303176413371_2_alg».proof.Proof.RefAt

set_option maxRecDepth 16384

noncomputable section

namespace Cert.Bridge

open Idealize.ShloMosaic Idealize.ShloMosaic.TcCoe Idealize.ShloMosaic.ValueIdx Idealize.SL.Sem
open Cert.EdgeLogit

/-- The neighbourhood mean is one composition of host operations in both programs. -/
theorem mean_eq (x0 : (⟨Cert.KernelIdeal.S20000x300, .f32⟩ : BufTy).Contents (Elt Ideal))
    (x2 x3 : (⟨Cert.KernelIdeal.S500000, .i32⟩ : BufTy).Contents (Elt Ideal)) :
    Cert.KernelIdeal.Stages.meanK (F := Ideal) x0 x2 x3 = Cert.ReferenceIdeal.Read.val_main_v17 (F := Ideal) x0 x2 x3 := rfl

/-- The drug endpoints' index column is one composition of host operations in both programs. -/
theorem colS_eq (x4 : (⟨Cert.KernelIdeal.S200000, .i32⟩ : BufTy).Contents (Elt Ideal)) :
    Cert.KernelIdeal.Stages.idxColS (F := Ideal) x4 = Cert.ReferenceIdeal.Read.val_main_v31 (F := Ideal) x4 := rfl

/-- The protein endpoints' index column is one composition of host operations in both programs. -/
theorem colD_eq (x5 : (⟨Cert.KernelIdeal.S200000, .i32⟩ : BufTy).Contents (Elt Ideal)) :
    Cert.KernelIdeal.Stages.idxColD (F := Ideal) x5 = Cert.ReferenceIdeal.Read.val_main_v38 (F := Ideal) x5 := rfl

theorem rowS_eq (x4 : (⟨Cert.KernelIdeal.S200000, .i32⟩ : BufTy).Contents (Elt Ideal)) (l : Fin 200000) :
    Cert.KernelIdeal.KernelAt.rowS x4 l = Cert.ReferenceIdeal.RefAt.rowS x4 l := by
  unfold Cert.KernelIdeal.KernelAt.rowS Cert.ReferenceIdeal.RefAt.rowS
  exact Fin.ext (congrArg (fun col => Cert.LibGatherRows.rowOf 20000 col l) (colS_eq x4))

theorem rowD_eq (x5 : (⟨Cert.KernelIdeal.S200000, .i32⟩ : BufTy).Contents (Elt Ideal)) (l : Fin 200000) :
    Cert.KernelIdeal.KernelAt.rowD x5 l = Cert.ReferenceIdeal.RefAt.rowD x5 l := by
  unfold Cert.KernelIdeal.KernelAt.rowD Cert.ReferenceIdeal.RefAt.rowD
  exact Fin.ext (congrArg (fun col => Cert.LibGatherRows.rowOf 8000 col l) (colD_eq x5))

/-- THE BRIDGE: the kernel program's result buffer holds the reference's result term of the same arguments. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W7 m ρ c (Proc.devRef .tc Cert.KernelIdeal.main_v51)
      = Cert.ReferenceIdeal.Read.val_main_v45 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8))
          (m ((c : Thread Cert.KernelIdeal.nD Cert.KernelIdeal.τ).loc Cert.KernelIdeal.main_arg9))
          (m ((c : Thread Cert.KernelIdeal.nD Cert.KernelIdeal.τ).loc Cert.KernelIdeal.main_arg10)) := by
  funext i
  obtain ⟨l, o, rfl⟩ : ∃ (l : Fin 200000) (o : Fin 5), i = ix2 l o := ⟨i 0, i 1, eq_ix2 i⟩
  refine (Cert.KernelIdeal.KernelAt.result_at m ρ c l o).trans ?_
  refine Eq.trans ?_ (Cert.ReferenceIdeal.RefAt.result_at _ _ _ _ _ _ _ _ _ _ _ l o).symm
  refine congrArg (· + m ((c : Thread Cert.KernelIdeal.nD Cert.KernelIdeal.τ).loc Cert.KernelIdeal.main_arg10) (ix1 o)) ?_
  rw [joined_sum, rowS_eq, rowD_eq, mean_eq]
  have hemb : embBiasMid (Cert.ReferenceIdeal.Read.val_main_v17 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg2))
        (m ((c : Thread Cert.KernelIdeal.nD Cert.KernelIdeal.τ).loc Cert.KernelIdeal.main_arg3)))
      (m ((c : Thread Cert.KernelIdeal.nD Cert.KernelIdeal.τ).loc Cert.KernelIdeal.main_arg1))
      (m ((c : Thread Cert.KernelIdeal.nD Cert.KernelIdeal.τ).loc Cert.KernelIdeal.main_arg6))
      (m ((c : Thread Cert.KernelIdeal.nD Cert.KernelIdeal.τ).loc Cert.KernelIdeal.main_arg7))
      (m ((c : Thread Cert.KernelIdeal.nD Cert.KernelIdeal.τ).loc Cert.KernelIdeal.main_arg8))
      = embBiasLast (Cert.ReferenceIdeal.Read.val_main_v17 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg2))
        (m ((c : Thread Cert.KernelIdeal.nD Cert.KernelIdeal.τ).loc Cert.KernelIdeal.main_arg3)))
      (m ((c : Thread Cert.KernelIdeal.nD Cert.KernelIdeal.τ).loc Cert.KernelIdeal.main_arg1))
      (m ((c : Thread Cert.KernelIdeal.nD Cert.KernelIdeal.τ).loc Cert.KernelIdeal.main_arg6))
      (m ((c : Thread Cert.KernelIdeal.nD Cert.KernelIdeal.τ).loc Cert.KernelIdeal.main_arg7))
      (m ((c : Thread Cert.KernelIdeal.nD Cert.KernelIdeal.τ).loc Cert.KernelIdeal.main_arg8)) :=
    funext fun p => funext fun h => embBiasMid_eq_last _ _ _ _ _ p h
  rw [hemb]

end Cert.Bridge

end
-- ==== Proof.lean ====
/-
  The certificate of an edge classifier on a bipartite drug-protein graph: a kernel program (two TensorCore kernels
  among host operations) against its plain reference, equal as extended reals.

  Both programs first average, per protein, the features of the drugs on its incoming message edges (a row gather, a
  segment sum, a division by the clipped in-degree).  The reference then forms each protein's SAGE embedding, gathers
  the two endpoints of every labelled edge, joins the drug's 300 features with the protein's 512-long embedding and
  applies one linear layer of 812 inputs.  The kernel program applies the linear layer's first 300 columns to every
  drug and its last 512 columns to every protein's embedding (the embedding never leaves the kernel), and only then
  gathers the two 5-wide logit rows of each labelled edge and adds them.  The two agree because a sum over the
  joined row is the sum over its first part plus the sum over its second part: a sum's range is cut, no product is
  redistributed, so no finiteness is needed and the precondition is never opened.

  The frames of the two kernel programs are their generated frame certificates; the reference's frame is its
  generated run with the result dropped; the idealization rewrote nothing, so "preserves" is trivial; "algebraic"
  pairs the kernel program's run, its result buffer named (ResultRun), with the reference's generated run, through the
  bridge (Bridge.result_eq).
-/
import proofs.«158668_j33303176413371_2_alg».proof.Defs
import proofs.«158668_j33303176413371_2_alg».proof.Proof.Gen.Kernel
import proofs.«158668_j33303176413371_2_alg».proof.Proof.Gen.Kernel.Skeleton
import proofs.«158668_j33303176413371_2_alg».proof.Proof.Gen.Kernel.Launch
import proofs.«158668_j33303176413371_2_alg».proof.Proof.Gen.Kernel.Points
import proofs.«158668_j33303176413371_2_alg».proof.Proof.Gen.Kernel.Frame
import proofs.«158668_j33303176413371_2_alg».proof.Proof.Gen.KernelIdeal
import proofs.«158668_j33303176413371_2_alg».proof.Proof.Gen.KernelIdeal.Skeleton
import proofs.«158668_j33303176413371_2_alg».proof.Proof.Gen.KernelIdeal.Launch
import proofs.«158668_j33303176413371_2_alg».proof.Proof.Gen.KernelIdeal.Points
import proofs.«158668_j33303176413371_2_alg».proof.Proof.Gen.KernelIdeal.Frame
import proofs.«158668_j33303176413371_2_alg».proof.Proof.Gen.ReferenceIdeal
import proofs.«158668_j33303176413371_2_alg».proof.Proof.Gen.Pre_finite_inputs
import proofs.«158668_j33303176413371_2_alg».proof.Proof.Gen.ReferenceIdeal.Run
import proofs.«158668_j33303176413371_2_alg».proof.Proof.Gen.ReferenceIdeal.Read
import proofs.«158668_j33303176413371_2_alg».proof.Proof.ResultRun
import proofs.«158668_j33303176413371_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs, run from memories that agree on the arguments, end with the same result: the kernel
    program's result buffer at the last boundary's contents, which is the reference's term of the same arguments. -/
theorem algebraic : Cert.algebraic_KernelIdeal_ReferenceIdeal := by
  intro m ρ m' ρ' _ hagree
  refine ⟨fun c => Cert.KernelIdeal.Gen.W7 m ρ c (Proc.devRef .tc Cert.KernelIdeal.main_v51),
    Cert.KernelIdeal.ResultRun.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq]
  obtain ⟨h0, h1, h2, h3, h4, h5, h6, h7, h8, h9, h10⟩ := hagree c
  rw [h0, h1, h2, h3, h4, h5, h6, h7, h8, h9, h10]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
